-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S128x128 : Shape := ⟨2, ![128, 128]⟩
abbrev S128 : Shape := ⟨1, ![128]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part6 {F : FTy → Type} [FloatOps F] (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  main_v103

def fn_part5 {F : FTy → Type} [FloatOps F] (main_arg18 : FVec F S128 .f32) (main_arg19 : FVec F S128x128 .f32) (main_arg20 : FVec F S128 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg18
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x128 .f32 := Host.absf main_arg19
  let main_cst_36 : FVec F S_ .f32 := constant S_ .f32 0x7F800000#32
  let main_v95 : FVec F S128x128 .f32 := broadcastInDim S128x128 ![] bcast_S_S128x128 main_cst_36
  let main_v96 : IVec S128x128 1 := cmpf .olt main_v94 main_v95
  let main_c_37 : IVec S_ 1 := constantI S_ 1 1#1
  let main_v97 : IVec S_ 1 := (fun x v => Host.reduce IntOp.andi x v reducesTo_S128x128_S_d0_1 h_S_) main_v96 main_c_37
  let main_v98 : IVec S_ 1 := andi main_v93 main_v97
  let main_v99 : FVec F S128 .f32 := Host.absf main_arg20
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_v98 main_v101 main_c_39

def fn_part4 {F : FTy → Type} [FloatOps F] (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg15
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg17
  let main_cst_32 : FVec F S_ .f32 := constant S_ .f32 0x7F800000#32
  fn_part5 (F := F) main_arg18 main_arg19 main_arg20 main_v83 main_v84 main_cst_32

def fn_part3 {F : FTy → Type} [FloatOps F] (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg13
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg14 main_arg15 main_arg16 main_arg17 main_arg18 main_arg19 main_arg20 main_v63 main_v67

def fn_part2 {F : FTy → Type} [FloatOps F] (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S131072x128 .f32) (main_arg1 : FVec F S131072x128 .f32) (main_arg2 : FVec F S131072x128 .f32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S131072x128 .f32 := Host.absf main_arg1
  let main_cst_0 : FVec F S_ .f32 := constant S_ .f32 0x7F800000#32
  let main_v5 : FVec F S131072x128 .f32 := broadcastInDim S131072x128 ![] bcast_S_S131072x128 main_cst_0
  let main_v6 : IVec S131072x128 1 := cmpf .olt main_v4 main_v5
  let main_c_1 : IVec S_ 1 := constantI S_ 1 1#1
  let main_v7 : IVec S_ 1 := (fun x v => Host.reduce IntOp.andi x v reducesTo_S131072x128_S_d0_1 h_S_) main_v6 main_c_1
  let main_v8 : IVec S_ 1 := andi main_v3 main_v7
  let main_v9 : FVec F S131072x128 .f32 := Host.absf main_arg2
  let main_cst_2 : FVec F S_ .f32 := constant S_ .f32 0x7F800000#32
  let main_v10 : FVec F S131072x128 .f32 := broadcastInDim S131072x128 ![] bcast_S_S131072x128 main_cst_2
  let main_v11 : IVec S131072x128 1 := cmpf .olt main_v9 main_v10
  let main_c_3 : IVec S_ 1 := constantI S_ 1 1#1
  let main_v12 : IVec S_ 1 := (fun x v => Host.reduce IntOp.andi x v reducesTo_S131072x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S131072x128 : Shape := ⟨2, ![131072, 128]⟩
abbrev S128x128 : Shape := ⟨2, ![128, 128]⟩
abbrev S128 : Shape := ⟨1, ![128]⟩
abbrev S128x384 : Shape := ⟨2, ![128, 384]⟩
abbrev S384 : Shape := ⟨1, ![384]⟩
abbrev S1x384 : Shape := ⟨2, ![1, 384]⟩
abbrev S128x256 : Shape := ⟨2, ![128, 256]⟩
abbrev S256 : Shape := ⟨1, ![256]⟩
abbrev S1x256 : Shape := ⟨2, ![1, 256]⟩
abbrev S1x128 : Shape := ⟨2, ![1, 128]⟩
abbrev S2048x128 : Shape := ⟨2, ![2048, 128]⟩
abbrev S2048x384 : Shape := ⟨2, ![2048, 384]⟩
abbrev S2048x256 : Shape := ⟨2, ![2048, 256]⟩

abbrev nBuf : Space → Nat
  | .hbm => 32
  | .vmem => 16
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S131072x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S128x128, .f32⟩
  | .hbm, ⟨20, _⟩ => ⟨S128, .f32⟩
  | .hbm, ⟨21, _⟩ => ⟨S128x384, .f32⟩
  | .hbm, ⟨22, _⟩ => ⟨S384, .f32⟩
  | .hbm, ⟨23, _⟩ => ⟨S1x384, .f32⟩
  | .hbm, ⟨24, _⟩ => ⟨S128x384, .f32⟩
  | .hbm, ⟨25, _⟩ => ⟨S384, .f32⟩
  | .hbm, ⟨26, _⟩ => ⟨S1x384, .f32⟩
  | .hbm, ⟨27, _⟩ => ⟨S128x256, .f32⟩
  | .hbm, ⟨28, _⟩ => ⟨S256, .f32⟩
  | .hbm, ⟨29, _⟩ => ⟨S1x256, .f32⟩
  | .hbm, ⟨30, _⟩ => ⟨S1x128, .f32⟩
  | .hbm, ⟨31, _⟩ => ⟨S131072x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S128x384, .f32⟩
  | .local _ .vmem, ⟨7, _⟩ => ⟨S1x384, .f32⟩
  | .local _ .vmem, ⟨8, _⟩ => ⟨S128x384, .f32⟩
  | .local _ .vmem, ⟨9, _⟩ => ⟨S1x384, .f32⟩
  | .local _ .vmem, ⟨10, _⟩ => ⟨S128x256, .f32⟩
  | .local _ .vmem, ⟨11, _⟩ => ⟨S1x256, .f32⟩
  | .local _ .vmem, ⟨12, _⟩ => ⟨S128x128, .f32⟩
  | .local _ .vmem, ⟨13, _⟩ => ⟨S1x128, .f32⟩
  | .local _ .vmem, ⟨14, _⟩ => ⟨S2048x128, .f32⟩
  | .local _ .vmem, ⟨15, _⟩ => ⟨S2048x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2048x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  concatenates_S128x128_S128x128_S128x128_S128x384_d1 : Shape.Concatenates [S128x128, S128x128, S128x128] S128x384 1
  concatenates_S128_S128_S128_S384_d0 : Shape.Concatenates [S128, S128, S128] S384 0
  shapeCasts_S384_S1x384 : S384.ShapeCasts S1x384
  concatenates_S128x128_S128x128_S128x256_d1 : Shape.Concatenates [S128x128, S128x128] S128x256 1
  concatenates_S128_S128_S256_d0 : Shape.Concatenates [S128, S128] S256 0
  shapeCasts_S256_S1x256 : S256.ShapeCasts S1x256
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S128x128_S128x128_0_0 : ∀ a, (![0, 0] : Fin 2 → Nat) a + S128x128.size a ≤ S128x128.size a
  h_S128x128 : 0 < S128x128.numel
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2048x384 : S1x384.Broadcasts S2048x384
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  slices_S2048x384_o0_0_S2048x128 : S2048x384.Slices ![0, 0] S2048x128
  slices_S2048x384_o0_128_S2048x128 : S2048x384.Slices ![0, 128] S2048x128
  slices_S2048x384_o0_256_S2048x128 : S2048x384.Slices ![0, 256] S2048x128
  slices_S2048x256_o0_0_S2048x128 : S2048x256.Slices ![0, 0] S2048x128
  slices_S2048x256_o0_128_S2048x128 : S2048x256.Slices ![0, 128] S2048x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  dot_S2048x128_S128x384_S2048x384_1_0_0_1_n_n_wf : DotDims.WF S2048x128 S128x384 S2048x384 [1] [0] [0] [1] [] []
  dot_S2048x128_S128x256_S2048x256_1_0_0_1_n_n_wf : DotDims.WF S2048x128 S128x256 S2048x256 [1] [0] [0] [1] [] []
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .f32 = 32 ∨ (Rect.block (s := S131072x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S131072x128.size a
  hwx0_1 : ∀ i : grid0.Coords, EltTy.bits .f32 = 32 ∨ (Rect.block (s := S131072x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S131072x128.size a
  hwx0_2 : ∀ i : grid0.Coords, EltTy.bits .f32 = 32 ∨ (Rect.block (s := S131072x128) S2048x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x384.size a ≤ S128x384.size a
  hwx0_3 : ∀ i : grid0.Coords, EltTy.bits .f32 = 32 ∨ (Rect.block (s := S128x384) S128x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x384.size a ≤ S1x384.size a
  hwx0_4 : ∀ i : grid0.Coords, EltTy.bits .f32 = 32 ∨ (Rect.block (s := S1x384) S1x384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x384.size a ≤ S128x384.size a
  hwx0_5 : ∀ i : grid0.Coords, EltTy.bits .f32 = 32 ∨ (Rect.block (s := S128x384) S128x384.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x384.size a ≤ S1x384.size a
  hwx0_6 : ∀ i : grid0.Coords, EltTy.bits .f32 = 32 ∨ (Rect.block (s := S1x384) S1x384.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x256.size a ≤ S128x256.size a
  hwx0_7 : ∀ i : grid0.Coords, EltTy.bits .f32 = 32 ∨ (Rect.block (s := S128x256) S128x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2048x128.size a ≤ S131072x128.size a
  hwx0_11 : ∀ i : grid0.Coords, EltTy.bits .f32 = 32 ∨ (Rect.block (s := S131072x128) S2048x128.size (cc0_transform_11 i) (hinb0_11 i)).WholeWords (EltTy.packing .f32)

variable [Facts₀]

def dot_S2048x128_S128x384_S2048x384_1_0_0_1_n_n : DotDims S2048x128 S128x384 S2048x384 where
  lhsContracting := [1]
  rhsContracting := [0]
  lhsNonContracting := [0]
  rhsNonContracting := [1]
  lhsBatch := []
  rhsBatch := []
  wf := dot_S2048x128_S128x384_S2048x384_1_0_0_1_n_n_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S128x384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x384.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S128x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg19) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v10) S2048x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S131072x128 : Shape := ⟨2, ![131072, 128]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S131072x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S128x128, .f32⟩
  | .hbm, ⟨20, _⟩ => ⟨S128, .f32⟩
  | .hbm, ⟨21, _⟩ => ⟨S131072x128, .f32⟩
  | .hbm, ⟨22, _⟩ => ⟨S1x128, .f32⟩
  | .hbm, ⟨23, _⟩ => ⟨S131072x128, .f32⟩
  | .hbm, ⟨24, _⟩ => ⟨S131072x128, .f32⟩
  | .hbm, ⟨25, _⟩ => ⟨S131072x128, .f32⟩
  | .hbm, ⟨26, _⟩ => ⟨S1x128, .f32⟩
  | .hbm, ⟨27, _⟩ => ⟨S131072x128, .f32⟩
  | .hbm, ⟨28, _⟩ => ⟨S131072x128, .f32⟩
  | .hbm, ⟨29, _⟩ => ⟨S131072x128, .f32⟩
  | .hbm, ⟨30, _⟩ => ⟨S131072x128, .f32⟩
  | .hbm, ⟨31, _⟩ => ⟨S131072x128, .f32⟩
  | .hbm, ⟨32, _⟩ => ⟨S_, .f32⟩
  | .hbm, ⟨33, _⟩ => ⟨S131072x128, .f32⟩
  | .hbm, ⟨34, _⟩ => ⟨S131072x128, .f32⟩
  | .hbm, ⟨35, _⟩ => ⟨S_, .f32⟩
  | .hbm, ⟨36, _⟩ => ⟨S131072x128, .f32⟩
  | .hbm, ⟨37, _⟩ => ⟨S131072x128, .f32⟩
  | .hbm, ⟨38, _⟩ => ⟨S131072x128, .f32⟩
  | .hbm, ⟨39, _⟩ => ⟨S1x128, .f32⟩
  | .hbm, ⟨40, _⟩ => ⟨S131072x128, .f32⟩
  | .hbm, ⟨41, _⟩ => ⟨S131072x128, .f32⟩
  | .hbm, ⟨42, _⟩ => ⟨S131072x128, .f32⟩
  | .hbm, ⟨43, _⟩ => ⟨S131072x128, .f32⟩
  | .hbm, ⟨44, _⟩ => ⟨S131072x128, .f32⟩
  | .hbm, ⟨45, _⟩ => ⟨S_, .f32⟩
  | .hbm, ⟨46, _⟩ => ⟨S131072x128, .f32⟩
  | .hbm, ⟨47, _⟩ => ⟨S131072x128, .f32⟩
  | .hbm, ⟨48, _⟩ => ⟨S_, .f32⟩
  | .hbm, ⟨49, _⟩ => ⟨S131072x128, .f32⟩
  | .hbm, ⟨50, _⟩ => ⟨S131072x128, .f32⟩
  | .hbm, ⟨51, _⟩ => ⟨S131072x128, .f32⟩
  | .hbm, ⟨52, _⟩ => ⟨S_, .f32⟩
  | .hbm, ⟨53, _⟩ => ⟨S131072x128, .f32⟩
  | .hbm, ⟨54, _⟩ => ⟨S131072x128, .f32⟩
  | .hbm, ⟨55, _⟩ => ⟨S131072x128, .f32⟩
  | .hbm, ⟨56, _⟩ => ⟨S1x128, .f32⟩
  | .hbm, ⟨57, _⟩ => ⟨S131072x128, .f32⟩
  | .hbm, ⟨58, _⟩ => ⟨S131072x128, .f32⟩
  | .hbm, ⟨59, _⟩ => ⟨S131072x128, .f32⟩
  | .hbm, ⟨60, _⟩ => ⟨S1x128, .f32⟩
  | .hbm, ⟨61, _⟩ => ⟨S131072x128, .f32⟩
  | .hbm, ⟨62, _⟩ => ⟨S131072x128, .f32⟩
  | .hbm, ⟨63, _⟩ => ⟨S131072x128, .f32⟩
  | .hbm, ⟨64, _⟩ => ⟨S131072x128, .f32⟩
  | .hbm, ⟨65, _⟩ => ⟨S131072x128, .f32⟩
  | .hbm, ⟨66, _⟩ => ⟨S_, .f32⟩
  | .hbm, ⟨67, _⟩ => ⟨S131072x128, .f32⟩
  | .hbm, ⟨68, _⟩ => ⟨S131072x128, .f32⟩
  | .hbm, ⟨69, _⟩ => ⟨S_, .f32⟩
  | .hbm, ⟨70, _⟩ => ⟨S131072x128, .f32⟩
  | .hbm, ⟨71, _⟩ => ⟨S131072x128, .f32⟩
  | .hbm, ⟨72, _⟩ => ⟨S131072x128, .f32⟩
  | .hbm, ⟨73, _⟩ => ⟨S1x128, .f32⟩
  | .hbm, ⟨74, _⟩ => ⟨S131072x128, .f32⟩
  | .hbm, ⟨75, _⟩ => ⟨S131072x128, .f32⟩
  | .hbm, ⟨76, _⟩ => ⟨S131072x128, .f32⟩
  | .hbm, ⟨77, _⟩ => ⟨S131072x128, .f32⟩
  | .hbm, ⟨78, _⟩ => ⟨S131072x128, .f32⟩
  | .hbm, ⟨79, _⟩ => ⟨S_, .f32⟩
  | .hbm, ⟨80, _⟩ => ⟨S131072x128, .f32⟩
  | .hbm, ⟨81, _⟩ => ⟨S131072x128, .f32⟩
  | .hbm, ⟨82, _⟩ => ⟨S_, .f32⟩
  | .hbm, ⟨83, _⟩ => ⟨S131072x128, .f32⟩
  | .hbm, ⟨84, _⟩ => ⟨S131072x128, .f32⟩
  | .hbm, ⟨85, _⟩ => ⟨S131072x128, .f32⟩
  | .hbm, ⟨86, _⟩ => ⟨S_, .f32⟩
  | .hbm, ⟨87, _⟩ => ⟨S131072x128, .f32⟩
  | .hbm, ⟨88, _⟩ => ⟨S131072x128, .f32⟩
  | .hbm, ⟨89, _⟩ => ⟨S131072x128, .f32⟩
  | .hbm, ⟨90, _⟩ => ⟨S1x128, .f32⟩
  | .hbm, ⟨91, _⟩ => ⟨S131072x128, .f32⟩
  | .hbm, ⟨92, _⟩ => ⟨S131072x128, .f32⟩
  | .hbm, ⟨93, _⟩ => ⟨S131072x128, .f32⟩
  | .hbm, ⟨94, _⟩ => ⟨S1x128, .f32⟩
  | .hbm, ⟨95, _⟩ => ⟨S131072x128, .f32⟩
  | .hbm, ⟨96, _⟩ => ⟨S131072x128, .f32⟩
  | .hbm, ⟨97, _⟩ => ⟨S131072x128, .f32⟩
  | .hbm, ⟨98, _⟩ => ⟨S131072x128, .f32⟩
  | .hbm, ⟨99, _⟩ => ⟨S131072x128, .f32⟩
  | .hbm, ⟨100, _⟩ => ⟨S1x128, .f32⟩
  | .hbm, ⟨101, _⟩ => ⟨S131072x128, .f32⟩
  | .hbm, ⟨102, _⟩ => ⟨S131072x128, .f32⟩
  | .hbm, ⟨103, _⟩ => ⟨S131072x128, .f32⟩
  | .hbm, ⟨104, _⟩ => ⟨S131072x128, .f32⟩
  | .hbm, ⟨105, _⟩ => ⟨S_, .f32⟩
  | .hbm, ⟨106, _⟩ => ⟨S131072x128, .f32⟩
  | .hbm, ⟨107, _⟩ => ⟨S131072x128, .f32⟩
  | .hbm, ⟨108, _⟩ => ⟨S131072x128, .f32⟩
  | .hbm, ⟨109, _⟩ => ⟨S131072x128, .f32⟩
  | .hbm, ⟨110, _⟩ => ⟨S131072x128, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_cst_0 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_1 : Ref sig .tc := ⟨.hbm, 45, rfl⟩
abbrev main_v22 : Ref sig .tc := ⟨.hbm, 46, rfl⟩
abbrev main_v23 : Ref sig .tc := ⟨.hbm, 47, rfl⟩
abbrev main_cst_2 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_3 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_4 : Ref sig .tc := ⟨.hbm, 66, rfl⟩
abbrev main_v40 : Ref sig .tc := ⟨.hbm, 67, rfl⟩
abbrev main_v41 : Ref sig .tc := ⟨.hbm, 68, rfl⟩
abbrev main_cst_5 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_6 : Ref sig .tc := ⟨.hbm, 79, rfl⟩
abbrev main_v51 : Ref sig .tc := ⟨.hbm, 80, rfl⟩
abbrev main_v52 : Ref sig .tc := ⟨.hbm, 81, rfl⟩
abbrev main_cst_7 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_8 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_9 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  dot_S131072x128_S128x128_S131072x128_1_0_0_1_n_n_wf : DotDims.WF S131072x128 S128x128 S131072x128 [1] [0] [0] [1] [] []

variable [Facts₀]

def dot_S131072x128_S128x128_S131072x128_1_0_0_1_n_n : DotDims S131072x128 S128x128 S131072x128 where
  lhsContracting := [1]
  rhsContracting := [0]
  lhsNonContracting := [0]
  rhsNonContracting := [1]
  lhsBatch := []
  rhsBatch := []
  wf := dot_S131072x128_S128x128_S131072x128_1_0_0_1_n_n_wf

class Facts : Prop extends Facts₀ where

variable [Facts]
-- ==== Proof.KFrame.lean ====
/-
  The frame of the kernel's program as printed for the word-level reading, at any float instance (the text is the
  idealized program's: the two printed programs differ in their namespace only).

  @main is ten host lines — three-way concatenations of the input- and sequence-gate weight matrices (128×384) and of
  their bias rows (384), a two-way concatenation of the hidden r- and z-gate weights (128×256) and biases (256), and the
  reshapes of the four bias rows to one-row matrices — followed by one region over 64 grid points. Point t stages rows
  2048·t … 2048·t+2047 of the three activation arrays (windows 0–2), the seven fused weight and bias arrays whole
  (windows 3–10, block index (0, 0) at every point), and writes back rows 2048·t … of the result (window 11).

  The body reads the eleven input buffers whole, loads the result buffer once without using what it loaded, and stores
  one 2048×128 block that is a pure function of the eleven loads (newBlock below). Hence: every input buffer holds its
  block at every point, the result buffer ends the point at newBlock of the input blocks, and no argument array is
  written: the host lines write only the ten fresh buffers, the region only the result array.
-/
import proofs.«136767_j63814624084652_2_alg».proof.Proof.Gen.Kernel.Launch
import proofs.«136767_j63814624084652_2_alg».proof.Proof.Gen.Kernel.Skeleton
import proofs.«136767_j63814624084652_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before the region -/

/-- What core c's buffers hold when the region is entered: the launch contents with the ten host results written. -/
abbrev V (c : Dev nD) (b : Ref sig .tc) : Buf (Elt F) ((c : Thread nD τ).loc b) :=
  StableHlo.after (List.flatten [hostOps0]) (fun b => m (c, b)) b

/-- The host lines allocate nothing. -/
theorem hostOps0_fresh : (hostOps0 : List (HloOp τ sig (Elt F))).Forall fun op => op.fresh = ∅ := by
  simp only [List.Forall]; repeat' constructor

/-- @main is the host lines, then the region, entered at the contents V. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- A buffer that is none of the ten host results is found by the region as launched: each host line writes its one
    result buffer and nothing else. -/
theorem V_of_not_result (c : Dev nD) (b : Ref sig .tc)
    (h0 : b ≠ main_v0) (h1 : b ≠ main_v1) (h2 : b ≠ main_v2) (h3 : b ≠ main_v3) (h4 : b ≠ main_v4) (h5 : b ≠ main_v5)
    (h6 : b ≠ main_v6) (h7 : b ≠ main_v7) (h8 : b ≠ main_v8) (h9 : b ≠ main_v9) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nary_writes, StableHlo.binary_writes, StableHlo.reshape_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7,
      StableHlo.devRef_ne_of_ne h8, StableHlo.devRef_ne_of_ne h9⟩))

theorem V_main_arg0 (c : Dev nD) : V m c main_arg0 = m ((c : Thread nD τ).loc main_arg0) :=
  V_of_not_result m c main_arg0 (by decide) (by decide) (by decide) (by decide) (by decide) (by decide) (by decide) (by decide) (by decide) (by decide)
theorem V_main_arg1 (c : Dev nD) : V m c main_arg1 = m ((c : Thread nD τ).loc main_arg1) :=
  V_of_not_result m c main_arg1 (by decide) (by decide) (by decide) (by decide) (by decide) (by decide) (by decide) (by decide) (by decide) (by decide)
theorem V_main_arg2 (c : Dev nD) : V m c main_arg2 = m ((c : Thread nD τ).loc main_arg2) :=
  V_of_not_result m c main_arg2 (by decide) (by decide) (by decide) (by decide) (by decide) (by decide) (by decide) (by decide) (by decide) (by decide)
theorem V_main_arg3 (c : Dev nD) : V m c main_arg3 = m ((c : Thread nD τ).loc main_arg3) :=
  V_of_not_result m c main_arg3 (by decide) (by decide) (by decide) (by decide) (by decide) (by decide) (by decide) (by decide) (by decide) (by decide)
theorem V_main_arg4 (c : Dev nD) : V m c main_arg4 = m ((c : Thread nD τ).loc main_arg4) :=
  V_of_not_result m c main_arg4 (by decide) (by decide) (by decide) (by decide) (by decide) (by decide) (by decide) (by decide) (by decide) (by decide)
theorem V_main_arg5 (c : Dev nD) : V m c main_arg5 = m ((c : Thread nD τ).loc main_arg5) :=
  V_of_not_result m c main_arg5 (by decide) (by decide) (by decide) (by decide) (by decide) (by decide) (by decide) (by decide) (by decide) (by decide)
theorem V_main_arg6 (c : Dev nD) : V m c main_arg6 = m ((c : Thread nD τ).loc main_arg6) :=
  V_of_not_result m c main_arg6 (by decide) (by decide) (by decide) (by decide) (by decide) (by decide) (by decide) (by decide) (by decide) (by decide)
theorem V_main_arg7 (c : Dev nD) : V m c main_arg7 = m ((c : Thread nD τ).loc main_arg7) :=
  V_of_not_result m c main_arg7 (by decide) (by decide) (by decide) (by decide) (by decide) (by decide) (by decide) (by decide) (by decide) (by decide)
theorem V_main_arg8 (c : Dev nD) : V m c main_arg8 = m ((c : Thread nD τ).loc main_arg8) :=
  V_of_not_result m c main_arg8 (by decide) (by decide) (by decide) (by decide) (by decide) (by decide) (by decide) (by decide) (by decide) (by decide)
theorem V_main_arg9 (c : Dev nD) : V m c main_arg9 = m ((c : Thread nD τ).loc main_arg9) :=
  V_of_not_result m c main_arg9 (by decide) (by decide) (by decide) (by decide) (by decide) (by decide) (by decide) (by decide) (by decide) (by decide)
theorem V_main_arg10 (c : Dev nD) : V m c main_arg10 = m ((c : Thread nD τ).loc main_arg10) :=
  V_of_not_result m c main_arg10 (by decide) (by decide) (by decide) (by decide) (by decide) (by decide) (by decide) (by decide) (by decide) (by decide)
theorem V_main_arg11 (c : Dev nD) : V m c main_arg11 = m ((c : Thread nD τ).loc main_arg11) :=
  V_of_not_result m c main_arg11 (by decide) (by decide) (by decide) (by decide) (by decide) (by decide) (by decide) (by decide) (by decide) (by decide)
theorem V_main_arg12 (c : Dev nD) : V m c main_arg12 = m ((c : Thread nD τ).loc main_arg12) :=
  V_of_not_result m c main_arg12 (by decide) (by decide) (by decide) (by decide) (by decide) (by decide) (by decide) (by decide) (by decide) (by decide)
theorem V_main_arg13 (c : Dev nD) : V m c main_arg13 = m ((c : Thread nD τ).loc main_arg13) :=
  V_of_not_result m c main_arg13 (by decide) (by decide) (by decide) (by decide) (by decide) (by decide) (by decide) (by decide) (by decide) (by decide)
theorem V_main_arg14 (c : Dev nD) : V m c main_arg14 = m ((c : Thread nD τ).loc main_arg14) :=
  V_of_not_result m c main_arg14 (by decide) (by decide) (by decide) (by decide) (by decide) (by decide) (by decide) (by decide) (by decide) (by decide)
theorem V_main_arg15 (c : Dev nD) : V m c main_arg15 = m ((c : Thread nD τ).loc main_arg15) :=
  V_of_not_result m c main_arg15 (by decide) (by decide) (by decide) (by decide) (by decide) (by decide) (by decide) (by decide) (by decide) (by decide)
theorem V_main_arg16 (c : Dev nD) : V m c main_arg16 = m ((c : Thread nD τ).loc main_arg16) :=
  V_of_not_result m c main_arg16 (by decide) (by decide) (by decide) (by decide) (by decide) (by decide) (by decide) (by decide) (by decide) (by decide)
theorem V_main_arg17 (c : Dev nD) : V m c main_arg17 = m ((c : Thread nD τ).loc main_arg17) :=
  V_of_not_result m c main_arg17 (by decide) (by decide) (by decide) (by decide) (by decide) (by decide) (by decide) (by decide) (by decide) (by decide)
theorem V_main_arg18 (c : Dev nD) : V m c main_arg18 = m ((c : Thread nD τ).loc main_arg18) :=
  V_of_not_result m c main_arg18 (by decide) (by decide) (by decide) (by decide) (by decide) (by decide) (by decide) (by decide) (by decide) (by decide)
theorem V_main_arg19 (c : Dev nD) : V m c main_arg19 = m ((c : Thread nD τ).loc main_arg19) :=
  V_of_not_result m c main_arg19 (by decide) (by decide) (by decide) (by decide) (by decide) (by decide) (by decide) (by decide) (by decide) (by decide)
theorem V_main_arg20 (c : Dev nD) : V m c main_arg20 = m ((c : Thread nD τ).loc main_arg20) :=
  V_of_not_result m c main_arg20 (by decide) (by decide) (by decide) (by decide) (by decide) (by decide) (by decide) (by decide) (by decide) (by decide)

/-! ## The windows' blocks -/

/-- Window w's block at point t of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether or not the pipeline fetched it
    there (where it did not, the block index has not moved since the last fetch), for any proof data whose array is
    the region-entry contents and whose body leaves the buffer as it found it. One lemma per input window. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_in7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_in8 {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_in9 {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before_in10 {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The body -/

/-- The whole rectangle of each buffer shape the body touches. -/
abbrev rAct : Rect S2048x128 := Rect.unit (s := S2048x128) ![0, 0] S2048x128.size inb_S2048x128_S2048x128_0_0
abbrev rW3 : Rect S128x384 := Rect.unit (s := S128x384) ![0, 0] S128x384.size inb_S128x384_S128x384_0_0
abbrev rB3 : Rect S1x384 := Rect.unit (s := S1x384) ![0, 0] S1x384.size inb_S1x384_S1x384_0_0
abbrev rW2 : Rect S128x256 := Rect.unit (s := S128x256) ![0, 0] S128x256.size inb_S128x256_S128x256_0_0
abbrev rB2 : Rect S1x256 := Rect.unit (s := S1x256) ![0, 0] S1x256.size inb_S1x256_S1x256_0_0
abbrev rW1 : Rect S128x128 := Rect.unit (s := S128x128) ![0, 0] S128x128.size inb_S128x128_S128x128_0_0
abbrev rB1 : Rect S1x128 := Rect.unit (s := S1x128) ![0, 0] S1x128.size inb_S1x128_S1x128_0_0

/-- The value the body stores, of the eleven buffers' contents as it loads them: x is the input block, s the sequence
    block, h the hidden block; wx, bx the input gates' fused weights and bias row, ws, bs the sequence gates', wh, bh the
    hidden r- and z-gates', wn, bn the hidden candidate's. -/
def newVal (x s h : Vec F S2048x128 .f32) (wx : Vec F S128x384 .f32) (bx : Vec F S1x384 .f32) (ws : Vec F S128x384 .f32)
    (bs : Vec F S1x384 .f32) (wh : Vec F S128x256 .f32) (bh : Vec F S1x256 .f32) (wn : Vec F S128x128 .f32) (bn : Vec F S1x128 .f32) :
    FVec F S2048x128 .f32 :=
  k0_pay1 (View.ld h rAct) (k0_pay2 (View.ld wn rW1)) (k0_pay4 (View.ld s rAct) (View.ld ws rW3) (View.ld bs rB3))
    (k0_pay5 (View.ld h rAct) (View.ld wh rW2) (View.ld bh rB2)) (k0_pay6 (View.ld x rAct) (View.ld wx rW3) (View.ld bx rB3))
    (k0_pay7 (View.ld x rAct) (View.ld wx rW3) (View.ld bx rB3)) (k0_pay8 (View.ld x rAct) (View.ld wx rW3) (View.ld bx rB3))
    (k0_pay9 (View.ld s rAct) (View.ld ws rW3) (View.ld bs rB3)) (View.ld bn rB1)

/-- What the result window's buffer holds after the body: its one store, of the whole buffer. -/
def newBlock (x s h : Vec F S2048x128 .f32) (wx : Vec F S128x384 .f32) (bx : Vec F S1x384 .f32) (ws : Vec F S128x384 .f32)
    (bs : Vec F S1x384 .f32) (wh : Vec F S128x256 .f32) (bh : Vec F S1x256 .f32) (wn : Vec F S128x128 .f32) (bn : Vec F S1x128 .f32) :
    Vec F S2048x128 .f32 :=
  View.canon [⟨rAct, newVal x s h wx bx ws bs wh bh wn bn⟩]

/-- The one store covers the buffer. -/
theorem store_covers (p : Vec F S2048x128 .f32) (y : S2048x128.Idx) :
    ∃ pc ∈ ([⟨rAct, p⟩] : List (View.Piece (Elt F) S2048x128 .f32)), y ∈ pc.1.set :=
  View.cover_of_tiled [⟨rAct, p⟩] S2048x128.size (by rfl) y

set_option maxHeartbeats 4000000 in
/-- The body on whole staging memrefs — the eleven inputs' at given contents, the result's at any — runs to a
    continuation that holds the inputs' as they were and the result's at newBlock of them. -/
theorem body_triple (c : Dev nD) (E : Set ℕ) (i : grid0.Coords)
    (arg1 : Memref sig .tc .vmem S2048x128 .f32) (harg1 : arg1.IsWhole) (arg2 : Memref sig .tc .vmem S2048x128 .f32) (harg2 : arg2.IsWhole)
    (arg3 : Memref sig .tc .vmem S2048x128 .f32) (harg3 : arg3.IsWhole) (arg4 : Memref sig .tc .vmem S128x384 .f32) (harg4 : arg4.IsWhole)
    (arg5 : Memref sig .tc .vmem S1x384 .f32) (harg5 : arg5.IsWhole) (arg6 : Memref sig .tc .vmem S128x384 .f32) (harg6 : arg6.IsWhole)
    (arg7 : Memref sig .tc .vmem S1x384 .f32) (harg7 : arg7.IsWhole) (arg8 : Memref sig .tc .vmem S128x256 .f32) (harg8 : arg8.IsWhole)
    (arg9 : Memref sig .tc .vmem S1x256 .f32) (harg9 : arg9.IsWhole) (arg10 : Memref sig .tc .vmem S128x128 .f32) (harg10 : arg10.IsWhole)
    (arg11 : Memref sig .tc .vmem S1x128 .f32) (harg11 : arg11.IsWhole) (arg12 : Memref sig .tc .vmem S2048x128 .f32) (harg12 : arg12.IsWhole)
    (x s h : Vec F S2048x128 .f32) (wx : Vec F S128x384 .f32) (bx : Vec F S1x384 .f32) (ws : Vec F S128x384 .f32)
    (bs : Vec F S1x384 .f32) (wh : Vec F S128x256 .f32) (bh : Vec F S1x256 .f32) (wn : Vec F S128x128 .f32) (bn : Vec F S1x128 .f32)
    (K : PUnit → sProp 𝕄) :
    iprop(owns (c : Thread nD τ) arg1 fullShare x ∗ owns (c : Thread nD τ) arg2 fullShare s ∗ owns (c : Thread nD τ) arg3 fullShare h
        ∗ owns (c : Thread nD τ) arg4 fullShare wx ∗ owns (c : Thread nD τ) arg5 fullShare bx ∗ owns (c : Thread nD τ) arg6 fullShare ws
        ∗ owns (c : Thread nD τ) arg7 fullShare bs ∗ owns (c : Thread nD τ) arg8 fullShare wh ∗ owns (c : Thread nD τ) arg9 fullShare bh
        ∗ owns (c : Thread nD τ) arg10 fullShare wn ∗ owns (c : Thread nD τ) arg11 fullShare bn
        ∗ (∃ d, owns (c : Thread nD τ) arg12 fullShare d)
        ∗ (iprop(owns (c : Thread nD τ) arg1 fullShare x ∗ owns (c : Thread nD τ) arg2 fullShare s ∗ owns (c : Thread nD τ) arg3 fullShare h
            ∗ owns (c : Thread nD τ) arg4 fullShare wx ∗ owns (c : Thread nD τ) arg5 fullShare bx ∗ owns (c : Thread nD τ) arg6 fullShare ws
            ∗ owns (c : Thread nD τ) arg7 fullShare bs ∗ owns (c : Thread nD τ) arg8 fullShare wh ∗ owns (c : Thread nD τ) arg9 fullShare bh
            ∗ owns (c : Thread nD τ) arg10 fullShare wn ∗ owns (c : Thread nD τ) arg11 fullShare bn
            ∗ owns (c : Thread nD τ) arg12 fullShare (newBlock x s h wx bx ws bs wh bh wn bn)) -∗ K ⟨⟩))
      ⊢ wp frame (wpE (defs₀ (F := F)) Variants.none c none) E
          (cc0__dualgru_kernel i arg1 harg1 arg2 harg2 arg3 harg3 arg4 harg4 arg5 harg5 arg6 harg6 arg7 harg7 arg8 harg8 arg9 harg9 arg10 harg10 arg11 harg11 arg12 harg12) K := by
  simp only [cc0__dualgru_kernel_eq_skeleton]; unfold cc0__dualgru_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf1 hf2 hf3 hf4 hf5 hf6 hf7 hf8 hf9 hf10 hf11
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  exact View.read_writes_eq_canon _ _ _ (store_covers _)

/-! ## The proof data -/

/-- On core c: the arrays as the region finds them; after the body at point t every input buffer at its block, the
    result buffer at newBlock of the input blocks; nothing scoped beyond the staging buffers is touched; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => newBlock (iblk m c 0 t) (iblk m c 1 t) (iblk m c 2 t) (iblk m c 3 t) (iblk m c 4 t) (iblk m c 5 t)
        (iblk m c 6 t) (iblk m c 7 t) (iblk m c 8 t) (iblk m c 9 t) (iblk m c 10 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t =
    newBlock (iblk m c 0 t) (iblk m c 1 t) (iblk m c 2 t) (iblk m c 3 t) (iblk m c 4 t) (iblk m c 5 t)
      (iblk m c 6 t) (iblk m c 7 t) (iblk m c 8 t) (iblk m c 9 t) (iblk m c 10 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d
theorem before5 (c : Dev nD) (t : Fin cfg0.N) (d) : (dats m 0 c).before 5 t d = iblk m c 5 t :=
  before_in5 m (dats m 0 c) (A_eq m c 5) (after5 m c) t d
theorem before6 (c : Dev nD) (t : Fin cfg0.N) (d) : (dats m 0 c).before 6 t d = iblk m c 6 t :=
  before_in6 m (dats m 0 c) (A_eq m c 6) (after6 m c) t d
theorem before7 (c : Dev nD) (t : Fin cfg0.N) (d) : (dats m 0 c).before 7 t d = iblk m c 7 t :=
  before_in7 m (dats m 0 c) (A_eq m c 7) (after7 m c) t d
theorem before8 (c : Dev nD) (t : Fin cfg0.N) (d) : (dats m 0 c).before 8 t d = iblk m c 8 t :=
  before_in8 m (dats m 0 c) (A_eq m c 8) (after8 m c) t d
theorem before9 (c : Dev nD) (t : Fin cfg0.N) (d) : (dats m 0 c).before 9 t d = iblk m c 9 t :=
  before_in9 m (dats m 0 c) (A_eq m c 9) (after9 m c) t d
theorem before10 (c : Dev nD) (t : Fin cfg0.N) (d) : (dats m 0 c).before 10 t d = iblk m c 10 t :=
  before_in10 m (dats m 0 c) (A_eq m c 10) (after10 m c) t d

/-! ## The body obligation at a point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- At every point the input buffers hold their blocks, so the body's triple applies; the invariant and the core's
    debts pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (body_triple c Set.univ (grid0.coords t) _ _ _ _ _ _ _ _ _ _ _ _ _ _ _ _ _ _ _ _ _ _ _ _
    (iblk m c 0 t) (iblk m c 1 t) (iblk m c 2 t) (iblk m c 3 t) (iblk m c 4 t) (iblk m c 5 t)
    (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main ends, nothing faulting, with every window's array at what the proof data
    computes (an input's as the region found it, the result's overwritten block by block with what each point left)
    and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same run with the result array named and each argument array read back to its launch contents: the three
    activation arrays and the candidate weights are staged by input windows, never written back; the other seventeen
    arguments are staged by no window and written by no host line. -/
theorem run_named : θ_run defs (onTc (τ := τ) (main (F := F))) ⟨m, fun _ => 0, ρ⟩ (fun r => ∀ c : Dev nD,
      r.2.mem ((c.tc : Thread nD τ).loc main_v10) = (dats m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => ⟨(h c).1 11,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).1 9).trans (((dats m 0 c).arrAt_in 9 rfl _).trans ((A_eq m c 9).trans (V_main_arg19 m c))),
      ((h c).2 main_arg20 (Pipeline.mem_restRefs_of main_arg20 (by decide) (by decide))).trans (V_main_arg20 m c)⟩)
    (run_main m ρ)

/-- The frame: the program runs to the end, nothing faulting, and leaves its twenty-one argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => (h c).2) (run_named m ρ)

end Cert.Kernel.Hand

end
-- ==== Proof.KIFrame.lean ====
/-
  The frame of the kernel's program, at any float instance.

  @main is ten host lines — three-way concatenations of the input- and sequence-gate weight matrices (128×384) and of
  their bias rows (384), a two-way concatenation of the hidden r- and z-gate weights (128×256) and biases (256), and the
  reshapes of the four bias rows to one-row matrices — followed by one region over 64 grid points. Point t stages rows
  2048·t … 2048·t+2047 of the three activation arrays (windows 0–2), the seven fused weight and bias arrays whole
  (windows 3–10, block index (0, 0) at every point), and writes back rows 2048·t … of the result (window 11).

  The body reads the eleven input buffers whole, loads the result buffer once without using what it loaded, and stores
  one 2048×128 block that is a pure function of the eleven loads (newBlock below). Hence: every input buffer holds its
  block at every point, the result buffer ends the point at newBlock of the input blocks, and no argument array is
  written: the host lines write only the ten fresh buffers, the region only the result array.
-/
import proofs.«136767_j63814624084652_2_alg».proof.Proof.Gen.KernelIdeal.Launch
import proofs.«136767_j63814624084652_2_alg».proof.Proof.Gen.KernelIdeal.Skeleton
import proofs.«136767_j63814624084652_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before the region -/

/-- What core c's buffers hold when the region is entered: the launch contents with the ten host results written. -/
abbrev V (c : Dev nD) (b : Ref sig .tc) : Buf (Elt F) ((c : Thread nD τ).loc b) :=
  StableHlo.after (List.flatten [hostOps0]) (fun b => m (c, b)) b

/-- The host lines allocate nothing. -/
theorem hostOps0_fresh : (hostOps0 : List (HloOp τ sig (Elt F))).Forall fun op => op.fresh = ∅ := by
  simp only [List.Forall]; repeat' constructor

/-- @main is the host lines, then the region, entered at the contents V. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- A buffer that is none of the ten host results is found by the region as launched: each host line writes its one
    result buffer and nothing else. -/
theorem V_of_not_result (c : Dev nD) (b : Ref sig .tc)
    (h0 : b ≠ main_v0) (h1 : b ≠ main_v1) (h2 : b ≠ main_v2) (h3 : b ≠ main_v3) (h4 : b ≠ main_v4) (h5 : b ≠ main_v5)
    (h6 : b ≠ main_v6) (h7 : b ≠ main_v7) (h8 : b ≠ main_v8) (h9 : b ≠ main_v9) :
    V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nary_writes, StableHlo.binary_writes, StableHlo.reshape_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7,
      StableHlo.devRef_ne_of_ne h8, StableHlo.devRef_ne_of_ne h9⟩))

theorem V_main_arg0 (c : Dev nD) : V m c main_arg0 = m ((c : Thread nD τ).loc main_arg0) :=
  V_of_not_result m c main_arg0 (by decide) (by decide) (by decide) (by decide) (by decide) (by decide) (by decide) (by decide) (by decide) (by decide)
theorem V_main_arg1 (c : Dev nD) : V m c main_arg1 = m ((c : Thread nD τ).loc main_arg1) :=
  V_of_not_result m c main_arg1 (by decide) (by decide) (by decide) (by decide) (by decide) (by decide) (by decide) (by decide) (by decide) (by decide)
theorem V_main_arg2 (c : Dev nD) : V m c main_arg2 = m ((c : Thread nD τ).loc main_arg2) :=
  V_of_not_result m c main_arg2 (by decide) (by decide) (by decide) (by decide) (by decide) (by decide) (by decide) (by decide) (by decide) (by decide)
theorem V_main_arg3 (c : Dev nD) : V m c main_arg3 = m ((c : Thread nD τ).loc main_arg3) :=
  V_of_not_result m c main_arg3 (by decide) (by decide) (by decide) (by decide) (by decide) (by decide) (by decide) (by decide) (by decide) (by decide)
theorem V_main_arg4 (c : Dev nD) : V m c main_arg4 = m ((c : Thread nD τ).loc main_arg4) :=
  V_of_not_result m c main_arg4 (by decide) (by decide) (by decide) (by decide) (by decide) (by decide) (by decide) (by decide) (by decide) (by decide)
theorem V_main_arg5 (c : Dev nD) : V m c main_arg5 = m ((c : Thread nD τ).loc main_arg5) :=
  V_of_not_result m c main_arg5 (by decide) (by decide) (by decide) (by decide) (by decide) (by decide) (by decide) (by decide) (by decide) (by decide)
theorem V_main_arg6 (c : Dev nD) : V m c main_arg6 = m ((c : Thread nD τ).loc main_arg6) :=
  V_of_not_result m c main_arg6 (by decide) (by decide) (by decide) (by decide) (by decide) (by decide) (by decide) (by decide) (by decide) (by decide)
theorem V_main_arg7 (c : Dev nD) : V m c main_arg7 = m ((c : Thread nD τ).loc main_arg7) :=
  V_of_not_result m c main_arg7 (by decide) (by decide) (by decide) (by decide) (by decide) (by decide) (by decide) (by decide) (by decide) (by decide)
theorem V_main_arg8 (c : Dev nD) : V m c main_arg8 = m ((c : Thread nD τ).loc main_arg8) :=
  V_of_not_result m c main_arg8 (by decide) (by decide) (by decide) (by decide) (by decide) (by decide) (by decide) (by decide) (by decide) (by decide)
theorem V_main_arg9 (c : Dev nD) : V m c main_arg9 = m ((c : Thread nD τ).loc main_arg9) :=
  V_of_not_result m c main_arg9 (by decide) (by decide) (by decide) (by decide) (by decide) (by decide) (by decide) (by decide) (by decide) (by decide)
theorem V_main_arg10 (c : Dev nD) : V m c main_arg10 = m ((c : Thread nD τ).loc main_arg10) :=
  V_of_not_result m c main_arg10 (by decide) (by decide) (by decide) (by decide) (by decide) (by decide) (by decide) (by decide) (by decide) (by decide)
theorem V_main_arg11 (c : Dev nD) : V m c main_arg11 = m ((c : Thread nD τ).loc main_arg11) :=
  V_of_not_result m c main_arg11 (by decide) (by decide) (by decide) (by decide) (by decide) (by decide) (by decide) (by decide) (by decide) (by decide)
theorem V_main_arg12 (c : Dev nD) : V m c main_arg12 = m ((c : Thread nD τ).loc main_arg12) :=
  V_of_not_result m c main_arg12 (by decide) (by decide) (by decide) (by decide) (by decide) (by decide) (by decide) (by decide) (by decide) (by decide)
theorem V_main_arg13 (c : Dev nD) : V m c main_arg13 = m ((c : Thread nD τ).loc main_arg13) :=
  V_of_not_result m c main_arg13 (by decide) (by decide) (by decide) (by decide) (by decide) (by decide) (by decide) (by decide) (by decide) (by decide)
theorem V_main_arg14 (c : Dev nD) : V m c main_arg14 = m ((c : Thread nD τ).loc main_arg14) :=
  V_of_not_result m c main_arg14 (by decide) (by decide) (by decide) (by decide) (by decide) (by decide) (by decide) (by decide) (by decide) (by decide)
theorem V_main_arg15 (c : Dev nD) : V m c main_arg15 = m ((c : Thread nD τ).loc main_arg15) :=
  V_of_not_result m c main_arg15 (by decide) (by decide) (by decide) (by decide) (by decide) (by decide) (by decide) (by decide) (by decide) (by decide)
theorem V_main_arg16 (c : Dev nD) : V m c main_arg16 = m ((c : Thread nD τ).loc main_arg16) :=
  V_of_not_result m c main_arg16 (by decide) (by decide) (by decide) (by decide) (by decide) (by decide) (by decide) (by decide) (by decide) (by decide)
theorem V_main_arg17 (c : Dev nD) : V m c main_arg17 = m ((c : Thread nD τ).loc main_arg17) :=
  V_of_not_result m c main_arg17 (by decide) (by decide) (by decide) (by decide) (by decide) (by decide) (by decide) (by decide) (by decide) (by decide)
theorem V_main_arg18 (c : Dev nD) : V m c main_arg18 = m ((c : Thread nD τ).loc main_arg18) :=
  V_of_not_result m c main_arg18 (by decide) (by decide) (by decide) (by decide) (by decide) (by decide) (by decide) (by decide) (by decide) (by decide)
theorem V_main_arg19 (c : Dev nD) : V m c main_arg19 = m ((c : Thread nD τ).loc main_arg19) :=
  V_of_not_result m c main_arg19 (by decide) (by decide) (by decide) (by decide) (by decide) (by decide) (by decide) (by decide) (by decide) (by decide)
theorem V_main_arg20 (c : Dev nD) : V m c main_arg20 = m ((c : Thread nD τ).loc main_arg20) :=
  V_of_not_result m c main_arg20 (by decide) (by decide) (by decide) (by decide) (by decide) (by decide) (by decide) (by decide) (by decide) (by decide)

/-! ## The windows' blocks -/

/-- Window w's block at point t of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether or not the pipeline fetched it
    there (where it did not, the block index has not moved since the last fetch), for any proof data whose array is
    the region-entry contents and whose body leaves the buffer as it found it. One lemma per input window. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_in7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_in8 {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_in9 {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before_in10 {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The body -/

/-- The whole rectangle of each buffer shape the body touches. -/
abbrev rAct : Rect S2048x128 := Rect.unit (s := S2048x128) ![0, 0] S2048x128.size inb_S2048x128_S2048x128_0_0
abbrev rW3 : Rect S128x384 := Rect.unit (s := S128x384) ![0, 0] S128x384.size inb_S128x384_S128x384_0_0
abbrev rB3 : Rect S1x384 := Rect.unit (s := S1x384) ![0, 0] S1x384.size inb_S1x384_S1x384_0_0
abbrev rW2 : Rect S128x256 := Rect.unit (s := S128x256) ![0, 0] S128x256.size inb_S128x256_S128x256_0_0
abbrev rB2 : Rect S1x256 := Rect.unit (s := S1x256) ![0, 0] S1x256.size inb_S1x256_S1x256_0_0
abbrev rW1 : Rect S128x128 := Rect.unit (s := S128x128) ![0, 0] S128x128.size inb_S128x128_S128x128_0_0
abbrev rB1 : Rect S1x128 := Rect.unit (s := S1x128) ![0, 0] S1x128.size inb_S1x128_S1x128_0_0

/-- The value the body stores, of the eleven buffers' contents as it loads them: x is the input block, s the sequence
    block, h the hidden block; wx, bx the input gates' fused weights and bias row, ws, bs the sequence gates', wh, bh the
    hidden r- and z-gates', wn, bn the hidden candidate's. -/
def newVal (x s h : Vec F S2048x128 .f32) (wx : Vec F S128x384 .f32) (bx : Vec F S1x384 .f32) (ws : Vec F S128x384 .f32)
    (bs : Vec F S1x384 .f32) (wh : Vec F S128x256 .f32) (bh : Vec F S1x256 .f32) (wn : Vec F S128x128 .f32) (bn : Vec F S1x128 .f32) :
    FVec F S2048x128 .f32 :=
  k0_pay1 (View.ld h rAct) (k0_pay2 (View.ld wn rW1)) (k0_pay4 (View.ld s rAct) (View.ld ws rW3) (View.ld bs rB3))
    (k0_pay5 (View.ld h rAct) (View.ld wh rW2) (View.ld bh rB2)) (k0_pay6 (View.ld x rAct) (View.ld wx rW3) (View.ld bx rB3))
    (k0_pay7 (View.ld x rAct) (View.ld wx rW3) (View.ld bx rB3)) (k0_pay8 (View.ld x rAct) (View.ld wx rW3) (View.ld bx rB3))
    (k0_pay9 (View.ld s rAct) (View.ld ws rW3) (View.ld bs rB3)) (View.ld bn rB1)

/-- What the result window's buffer holds after the body: its one store, of the whole buffer. -/
def newBlock (x s h : Vec F S2048x128 .f32) (wx : Vec F S128x384 .f32) (bx : Vec F S1x384 .f32) (ws : Vec F S128x384 .f32)
    (bs : Vec F S1x384 .f32) (wh : Vec F S128x256 .f32) (bh : Vec F S1x256 .f32) (wn : Vec F S128x128 .f32) (bn : Vec F S1x128 .f32) :
    Vec F S2048x128 .f32 :=
  View.canon [⟨rAct, newVal x s h wx bx ws bs wh bh wn bn⟩]

/-- The one store covers the buffer. -/
theorem store_covers (p : Vec F S2048x128 .f32) (y : S2048x128.Idx) :
    ∃ pc ∈ ([⟨rAct, p⟩] : List (View.Piece (Elt F) S2048x128 .f32)), y ∈ pc.1.set :=
  View.cover_of_tiled [⟨rAct, p⟩] S2048x128.size (by rfl) y

set_option maxHeartbeats 4000000 in
/-- The body on whole staging memrefs — the eleven inputs' at given contents, the result's at any — runs to a
    continuation that holds the inputs' as they were and the result's at newBlock of them. -/
theorem body_triple (c : Dev nD) (E : Set ℕ) (i : grid0.Coords)
    (arg1 : Memref sig .tc .vmem S2048x128 .f32) (harg1 : arg1.IsWhole) (arg2 : Memref sig .tc .vmem S2048x128 .f32) (harg2 : arg2.IsWhole)
    (arg3 : Memref sig .tc .vmem S2048x128 .f32) (harg3 : arg3.IsWhole) (arg4 : Memref sig .tc .vmem S128x384 .f32) (harg4 : arg4.IsWhole)
    (arg5 : Memref sig .tc .vmem S1x384 .f32) (harg5 : arg5.IsWhole) (arg6 : Memref sig .tc .vmem S128x384 .f32) (harg6 : arg6.IsWhole)
    (arg7 : Memref sig .tc .vmem S1x384 .f32) (harg7 : arg7.IsWhole) (arg8 : Memref sig .tc .vmem S128x256 .f32) (harg8 : arg8.IsWhole)
    (arg9 : Memref sig .tc .vmem S1x256 .f32) (harg9 : arg9.IsWhole) (arg10 : Memref sig .tc .vmem S128x128 .f32) (harg10 : arg10.IsWhole)
    (arg11 : Memref sig .tc .vmem S1x128 .f32) (harg11 : arg11.IsWhole) (arg12 : Memref sig .tc .vmem S2048x128 .f32) (harg12 : arg12.IsWhole)
    (x s h : Vec F S2048x128 .f32) (wx : Vec F S128x384 .f32) (bx : Vec F S1x384 .f32) (ws : Vec F S128x384 .f32)
    (bs : Vec F S1x384 .f32) (wh : Vec F S128x256 .f32) (bh : Vec F S1x256 .f32) (wn : Vec F S128x128 .f32) (bn : Vec F S1x128 .f32)
    (K : PUnit → sProp 𝕄) :
    iprop(owns (c : Thread nD τ) arg1 fullShare x ∗ owns (c : Thread nD τ) arg2 fullShare s ∗ owns (c : Thread nD τ) arg3 fullShare h
        ∗ owns (c : Thread nD τ) arg4 fullShare wx ∗ owns (c : Thread nD τ) arg5 fullShare bx ∗ owns (c : Thread nD τ) arg6 fullShare ws
        ∗ owns (c : Thread nD τ) arg7 fullShare bs ∗ owns (c : Thread nD τ) arg8 fullShare wh ∗ owns (c : Thread nD τ) arg9 fullShare bh
        ∗ owns (c : Thread nD τ) arg10 fullShare wn ∗ owns (c : Thread nD τ) arg11 fullShare bn
        ∗ (∃ d, owns (c : Thread nD τ) arg12 fullShare d)
        ∗ (iprop(owns (c : Thread nD τ) arg1 fullShare x ∗ owns (c : Thread nD τ) arg2 fullShare s ∗ owns (c : Thread nD τ) arg3 fullShare h
            ∗ owns (c : Thread nD τ) arg4 fullShare wx ∗ owns (c : Thread nD τ) arg5 fullShare bx ∗ owns (c : Thread nD τ) arg6 fullShare ws
            ∗ owns (c : Thread nD τ) arg7 fullShare bs ∗ owns (c : Thread nD τ) arg8 fullShare wh ∗ owns (c : Thread nD τ) arg9 fullShare bh
            ∗ owns (c : Thread nD τ) arg10 fullShare wn ∗ owns (c : Thread nD τ) arg11 fullShare bn
            ∗ owns (c : Thread nD τ) arg12 fullShare (newBlock x s h wx bx ws bs wh bh wn bn)) -∗ K ⟨⟩))
      ⊢ wp frame (wpE (defs₀ (F := F)) Variants.none c none) E
          (cc0__dualgru_kernel i arg1 harg1 arg2 harg2 arg3 harg3 arg4 harg4 arg5 harg5 arg6 harg6 arg7 harg7 arg8 harg8 arg9 harg9 arg10 harg10 arg11 harg11 arg12 harg12) K := by
  simp only [cc0__dualgru_kernel_eq_skeleton]; unfold cc0__dualgru_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
  subst hf1 hf2 hf3 hf4 hf5 hf6 hf7 hf8 hf9 hf10 hf11
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  iexists _; isplitr
  swap; · iexact H12
  ipureintro
  exact View.read_writes_eq_canon _ _ _ (store_covers _)

/-! ## The proof data -/

/-- On core c: the arrays as the region finds them; after the body at point t every input buffer at its block, the
    result buffer at newBlock of the input blocks; nothing scoped beyond the staging buffers is touched; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => newBlock (iblk m c 0 t) (iblk m c 1 t) (iblk m c 2 t) (iblk m c 3 t) (iblk m c 4 t) (iblk m c 5 t)
        (iblk m c 6 t) (iblk m c 7 t) (iblk m c 8 t) (iblk m c 9 t) (iblk m c 10 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t =
    newBlock (iblk m c 0 t) (iblk m c 1 t) (iblk m c 2 t) (iblk m c 3 t) (iblk m c 4 t) (iblk m c 5 t)
      (iblk m c 6 t) (iblk m c 7 t) (iblk m c 8 t) (iblk m c 9 t) (iblk m c 10 t) := by dsimp only [dats]

theorem before0 (c : Dev nD) (t : Fin cfg0.N) (d) : (dats m 0 c).before 0 t d = iblk m c 0 t :=
  before_in0 m (dats m 0 c) (A_eq m c 0) (after0 m c) t d
theorem before1 (c : Dev nD) (t : Fin cfg0.N) (d) : (dats m 0 c).before 1 t d = iblk m c 1 t :=
  before_in1 m (dats m 0 c) (A_eq m c 1) (after1 m c) t d
theorem before2 (c : Dev nD) (t : Fin cfg0.N) (d) : (dats m 0 c).before 2 t d = iblk m c 2 t :=
  before_in2 m (dats m 0 c) (A_eq m c 2) (after2 m c) t d
theorem before3 (c : Dev nD) (t : Fin cfg0.N) (d) : (dats m 0 c).before 3 t d = iblk m c 3 t :=
  before_in3 m (dats m 0 c) (A_eq m c 3) (after3 m c) t d
theorem before4 (c : Dev nD) (t : Fin cfg0.N) (d) : (dats m 0 c).before 4 t d = iblk m c 4 t :=
  before_in4 m (dats m 0 c) (A_eq m c 4) (after4 m c) t d
theorem before5 (c : Dev nD) (t : Fin cfg0.N) (d) : (dats m 0 c).before 5 t d = iblk m c 5 t :=
  before_in5 m (dats m 0 c) (A_eq m c 5) (after5 m c) t d
theorem before6 (c : Dev nD) (t : Fin cfg0.N) (d) : (dats m 0 c).before 6 t d = iblk m c 6 t :=
  before_in6 m (dats m 0 c) (A_eq m c 6) (after6 m c) t d
theorem before7 (c : Dev nD) (t : Fin cfg0.N) (d) : (dats m 0 c).before 7 t d = iblk m c 7 t :=
  before_in7 m (dats m 0 c) (A_eq m c 7) (after7 m c) t d
theorem before8 (c : Dev nD) (t : Fin cfg0.N) (d) : (dats m 0 c).before 8 t d = iblk m c 8 t :=
  before_in8 m (dats m 0 c) (A_eq m c 8) (after8 m c) t d
theorem before9 (c : Dev nD) (t : Fin cfg0.N) (d) : (dats m 0 c).before 9 t d = iblk m c 9 t :=
  before_in9 m (dats m 0 c) (A_eq m c 9) (after9 m c) t d
theorem before10 (c : Dev nD) (t : Fin cfg0.N) (d) : (dats m 0 c).before 10 t d = iblk m c 10 t :=
  before_in10 m (dats m 0 c) (A_eq m c 10) (after10 m c) t d

/-! ## The body obligation at a point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

/-- At every point the input buffers hold their blocks, so the body's triple applies; the invariant and the core's
    debts pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (body_triple c Set.univ (grid0.coords t) _ _ _ _ _ _ _ _ _ _ _ _ _ _ _ _ _ _ _ _ _ _ _ _
    (iblk m c 0 t) (iblk m c 1 t) (iblk m c 2 t) (iblk m c 3 t) (iblk m c 4 t) (iblk m c 5 t)
    (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main ends, nothing faulting, with every window's array at what the proof data
    computes (an input's as the region found it, the result's overwritten block by block with what each point left)
    and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same run with the result array named and each argument array read back to its launch contents: the three
    activation arrays and the candidate weights are staged by input windows, never written back; the other seventeen
    arguments are staged by no window and written by no host line. -/
theorem run_named : θ_run defs (onTc (τ := τ) (main (F := F))) ⟨m, fun _ => 0, ρ⟩ (fun r => ∀ c : Dev nD,
      r.2.mem ((c.tc : Thread nD τ).loc main_v10) = (dats m 0 c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => ⟨(h c).1 11,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).1 9).trans (((dats m 0 c).arrAt_in 9 rfl _).trans ((A_eq m c 9).trans (V_main_arg19 m c))),
      ((h c).2 main_arg20 (Pipeline.mem_restRefs_of main_arg20 (by decide) (by decide))).trans (V_main_arg20 m c)⟩)
    (run_main m ρ)

/-- The frame: the program runs to the end, nothing faulting, and leaves its twenty-one argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun _ h c => (h c).2) (run_named m ρ)

end Cert.KernelIdeal.Hand

end
-- ==== Proof.Spec.lean ====
/-
  The function both programs compute, entry by entry, on the extended reals.

  With x, s, h the input, sequence and hidden arrays (131072 rows of 128), and for each of nine gates a 128×128 weight
  matrix W and a bias row b, write (X·W + b)(r, j) = Σₖ X(r, k)·W(k, j) + b(j). Then

    r   = ½·(σ(x·W_ir + b_ir + (h·W_hr + b_hr)) + σ(s·W_sr + b_sr + (h·W_hr + b_hr)))
    z   = ½·(σ(x·W_iz + b_iz + (h·W_hz + b_hz)) + σ(s·W_sz + b_sz + (h·W_hz + b_hz)))
    n   = tanh((x·W_in + b_in + (s·W_sn + b_sn)) + ((r ⊙ h)·W_hn + b_hn))
    out = (1 − z)·n + z·h

  where σ(a) = 1 / (1 + e^(−a)) with the extended reals' quotient. Row r of the result depends on row r of x, s, h
  only, so the function is stated for ONE row (cell): from the three rows as functions of the column, the nine weight
  matrices as functions of (contraction index, column) and the nine bias rows. Sums, products and the order of the
  additions are spelt as both programs perform them, so no law of the extended reals is needed to meet either side:
  the kernel differs from the reference only in how it lays the weight matrices side by side and cuts the products
  apart again, and in computing 2048 rows at a time.
-/
import Idealize.ShloMosaic.PureOps.Ideal
import Idealize.ShloMosaic.PureOps.Ideal.Laws
import Idealize.ShloMosaic.Lib.ValueIdx

noncomputable section

namespace Cert.GruSpec

open Idealize.ShloMosaic Idealize.ShloMosaic.ValueIdx

/-- The float words 1.0 and 0.5 as extended reals. -/
abbrev one : EReal := Ideal.ofBits .f32 0x3F800000#32
abbrev half : EReal := Ideal.ofBits .f32 0x3F000000#32

/-- The word 1.0 is the real 1. -/
theorem one_eq : one = 1 := by
  show Ideal.ofBits .f32 0x3F800000#32 = 1
  simp [Ideal.ofBits, Ideal.ieee, -EReal.coe_mul]; norm_num

/-- The logistic function as the reference spells it: 1 / (1 + e^(−a)). -/
def sigm (a : EReal) : EReal := Ideal.div one (one + Ideal.exp (-a))

/-- The kernel's logistic operation is that expression. -/
theorem logistic_eq_sigm (a : EReal) : Ideal.logistic a = sigm a := by
  unfold sigm Ideal.logistic
  rw [one_eq]

/-- One entry of an affine layer applied to a row: Σₖ X(k)·W(k, j) + b(j). -/
def aff (X : Fin 128 → EReal) (W : Fin 128 → Fin 128 → EReal) (b : Fin 128 → EReal) (j : Fin 128) : EReal :=
  (∑ k : Fin 128, X k * W k j) + b j

/-- A gate: the mean of the logistic of an input path and of a sequence path that share one hidden term. -/
def gate (a s h : EReal) : EReal := (sigm (a + h) + sigm (s + h)) * half

/-- One row of the new hidden state at column j, from the row's three inputs, the nine weight matrices and the nine
    bias rows. -/
def cell (x s h : Fin 128 → EReal)
    (Wir Wiz Win Wsr Wsz Wsn Whr Whz Whn : Fin 128 → Fin 128 → EReal)
    (bir biz bin bsr bsz bsn bhr bhz bhn : Fin 128 → EReal) (j : Fin 128) : EReal :=
  (one - gate (aff x Wiz biz j) (aff s Wsz bsz j) (aff h Whz bhz j))
      * Ideal.tanh ((aff x Win bin j + aff s Wsn bsn j)
          + ((∑ k : Fin 128, (gate (aff x Wir bir k) (aff s Wsr bsr k) (aff h Whr bhr k) * h k) * Whn k j) + bhn j))
    + gate (aff x Wiz biz j) (aff s Wsz bsz j) (aff h Whz bhz j) * h j

/-- The activation arrays' shape, a weight matrix's, a bias row's. -/
abbrev Act : Shape := ⟨2, ![131072, 128]⟩
abbrev Mat : Shape := ⟨2, ![128, 128]⟩
abbrev Row : Shape := ⟨1, ![128]⟩

/-- The whole result array of the argument arrays: entry (r, j) is the cell of row r at column j. -/
def G (x s h : Act.Idx → EReal)
    (Wir : Mat.Idx → EReal) (bir : Row.Idx → EReal) (Wiz : Mat.Idx → EReal) (biz : Row.Idx → EReal)
    (Win : Mat.Idx → EReal) (bin : Row.Idx → EReal) (Wsr : Mat.Idx → EReal) (bsr : Row.Idx → EReal)
    (Wsz : Mat.Idx → EReal) (bsz : Row.Idx → EReal) (Wsn : Mat.Idx → EReal) (bsn : Row.Idx → EReal)
    (Whr : Mat.Idx → EReal) (bhr : Row.Idx → EReal) (Whz : Mat.Idx → EReal) (bhz : Row.Idx → EReal)
    (Whn : Mat.Idx → EReal) (bhn : Row.Idx → EReal) : Act.Idx → EReal := fun i =>
  cell (fun k => x (ix2 (i 0) k)) (fun k => s (ix2 (i 0) k)) (fun k => h (ix2 (i 0) k))
    (fun k j => Wir (ix2 k j)) (fun k j => Wiz (ix2 k j)) (fun k j => Win (ix2 k j))
    (fun k j => Wsr (ix2 k j)) (fun k j => Wsz (ix2 k j)) (fun k j => Wsn (ix2 k j))
    (fun k j => Whr (ix2 k j)) (fun k j => Whz (ix2 k j)) (fun k j => Whn (ix2 k j))
    (fun j => bir (ix1 j)) (fun j => biz (ix1 j)) (fun j => bin (ix1 j))
    (fun j => bsr (ix1 j)) (fun j => bsz (ix1 j)) (fun j => bsn (ix1 j))
    (fun j => bhr (ix1 j)) (fun j => bhz (ix1 j)) (fun j => bhn (ix1 j)) (i 1)

end Cert.GruSpec

end
-- ==== Proof.LibPlainDot.lean ====
/-
  A plain matrix product read one entry at a time, over the extended reals.

  For an M×K array l and a K×N array r, the product's entry (p, q) is the sum over k of l(p, k) * r(k, q). This holds
  of the accelerator's matrix unit started from a zero accumulator and of the host's general dot product alike: both
  are exact sums at the ideal values, and a sum over the one contracted axis is re-indexed by that axis's coordinate.
  Adding a bias row b(q) to every row gives the linear layer's entry, `linRow`: it depends on the left operand only
  through its row p. That is the whole reason a product computed on blocks of rows agrees with the product computed
  on all rows at once.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibPlainDot

open Idealize.ShloMosaic Idealize.ShloMosaic.ValueIdx

/-- The plain product contracts one axis … -/
theorem plain_rank (M K N : ℕ) : (DotDims.plain M K N).contr.rank = 1 := rfl

/-- … of extent K. -/
theorem plain_size (M K N : ℕ) : (DotDims.plain M K N).contr.size ⟨0, by rw [plain_rank]; exact Nat.one_pos⟩ = K := rfl

/-- The contraction positions of a plain product are the K coordinates of the contracted axis. -/
abbrev plainEquiv (M K N : ℕ) : (DotDims.plain M K N).contr.Idx ≃ Fin K :=
  contrEquiv1 (DotDims.plain M K N) K (plain_rank M K N) (plain_size M K N)

/-- At output entry (p, q) and contraction coordinate k the left operand is read at (p, k). -/
theorem plain_lhsIdx (M K N : ℕ) (p : Fin M) (q : Fin N) (k : Fin K) :
    (DotDims.plain M K N).lhsIdx (ix2 p q) ((plainEquiv M K N).symm k) = ix2 p k := by
  funext a
  match a with
  | ⟨0, _⟩ => exact Fin.ext rfl
  | ⟨1, _⟩ =>
    exact Fin.ext ((DotDims.lhsIdx_val_of_single (DotDims.plain M K N) (cl := 1) rfl _ _).trans (contrEquiv1_symm_val _ _ _ _ k))

/-- At output entry (p, q) and contraction coordinate k the right operand is read at (k, q). -/
theorem plain_rhsIdx (M K N : ℕ) (p : Fin M) (q : Fin N) (k : Fin K) :
    (DotDims.plain M K N).rhsIdx (ix2 p q) ((plainEquiv M K N).symm k) = ix2 k q := by
  funext a
  match a with
  | ⟨1, _⟩ => exact Fin.ext rfl
  | ⟨0, _⟩ =>
    exact Fin.ext ((DotDims.rhsIdx_val_of_single (DotDims.plain M K N) (cr := 0) rfl _ _).trans (contrEquiv1_symm_val _ _ _ _ k))

/-- The product's sum over contraction positions is the sum over k of l(p, k) * r(k, q). -/
theorem plain_sum (M K N : ℕ) (l : (⟨2, ![M, K]⟩ : Shape).Idx → EReal) (r : (⟨2, ![K, N]⟩ : Shape).Idx → EReal) (p : Fin M) (q : Fin N) :
    ∑ k : (DotDims.plain M K N).contr.Idx, l ((DotDims.plain M K N).lhsIdx (ix2 p q) k) * r ((DotDims.plain M K N).rhsIdx (ix2 p q) k)
      = ∑ k : Fin K, l (ix2 p k) * r (ix2 k q) := by
  rw [← Equiv.sum_comp (plainEquiv M K N).symm]
  exact Finset.sum_congr rfl fun k _ => by rw [plain_lhsIdx, plain_rhsIdx]

/-- The matrix unit from a zero accumulator, at entry (p, q). -/
theorem plain_matmul {φ₁ φ₂ : FTy} (M K N : ℕ) (l : FVec Ideal ⟨2, ![M, K]⟩ φ₁) (r : FVec Ideal ⟨2, ![K, N]⟩ φ₂) (p : Fin M) (q : Fin N) :
    FloatOps.matmul (DotDims.plain M K N) none l r (constant _ .f32 0x00000000#32) (ix2 p q) = ∑ k : Fin K, l (ix2 p k) * r (ix2 k q) := by
  rw [Ideal.matmul_constant_zero_apply]; exact plain_sum M K N l r p q

/-- The host's general dot product, at entry (p, q). -/
theorem plain_dotGeneral {φ₁ φ₂ : FTy} (M K N : ℕ) (sched : HostSchedule) (l : FVec Ideal ⟨2, ![M, K]⟩ φ₁) (r : FVec Ideal ⟨2, ![K, N]⟩ φ₂) (p : Fin M) (q : Fin N) :
    FloatOps.dotGeneral (DotDims.plain M K N) none sched l r (ix2 p q) = ∑ k : Fin K, l (ix2 p k) * r (ix2 k q) := by
  rw [Ideal.dotGeneral_apply]; exact plain_sum M K N l r p q

/-- One entry of a linear layer: the row x times column c of w, plus the bias at c. -/
def linRow {K C : ℕ} (x : Fin K → EReal) (w : (⟨2, ![K, C]⟩ : Shape).Idx → EReal) (b : (⟨1, ![C]⟩ : Shape).Idx → EReal) (c : Fin C) : EReal :=
  (∑ k : Fin K, x k * w (ix2 k c)) + b (ix1 c)

/-- A bias vector given a leading unit axis and repeated down the rows reads b(q) at (p, q). -/
theorem biasRows_apply {α : Type} {M N : ℕ} (b : (⟨1, ![N]⟩ : Shape).Idx → α) (h : (⟨1, ![N]⟩ : Shape).ShapeCasts ⟨2, ![1, N]⟩)
    (h' : (⟨2, ![1, N]⟩ : Shape).Broadcasts ⟨2, ![M, N]⟩) (p : Fin M) (q : Fin N) :
    broadcastTo ⟨2, ![M, N]⟩ (shapeCast ⟨2, ![1, N]⟩ b h) h' (ix2 p q) = b (ix1 q) := by
  rw [broadcastTo_1b_ab_apply, shapeCast_a_1a_apply]

/-- The host's spelling of the same: the vector laid along axis 1 of a one-row array, that row laid along both axes. -/
theorem biasRowsInDim_apply {α : Type} {M N : ℕ} (b : (⟨1, ![N]⟩ : Shape).Idx → α)
    (h : (⟨1, ![N]⟩ : Shape).BroadcastsInDim ⟨2, ![1, N]⟩ ![1]) (h' : (⟨2, ![1, N]⟩ : Shape).BroadcastsInDim ⟨2, ![M, N]⟩ ![0, 1])
    (p : Fin M) (q : Fin N) :
    broadcastInDim ⟨2, ![M, N]⟩ ![0, 1] h' (broadcastInDim ⟨2, ![1, N]⟩ ![1] h b) (ix2 p q) = b (ix1 q) := by
  rw [broadcastInDim_apply ![0, 1] h' _ (ix2 p q) (ix2 (0 : Fin 1) q) (fun a => by
        match a with
        | ⟨0, _⟩ => rfl
        | ⟨1, _⟩ =>
          show q.val = if N = 1 then 0 else q.val
          split
          · have := q.isLt; omega
          · rfl),
      broadcastInDim_apply ![1] h b (ix2 (0 : Fin 1) q) (ix1 q) (fun a => by
        match a with
        | ⟨0, _⟩ =>
          show q.val = if N = 1 then 0 else q.val
          split
          · have := q.isLt; omega
          · rfl)]

/-- THE KERNEL'S LINEAR LAYER at entry (p, q): the matrix unit from zero plus the bias rows is the row's `linRow`. -/
theorem matmul_bias_at {φ₁ φ₂ : FTy} (M K N : ℕ) (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (b : FVec Ideal ⟨1, ![N]⟩ .f32)
    (h : (⟨1, ![N]⟩ : Shape).ShapeCasts ⟨2, ![1, N]⟩) (h' : (⟨2, ![1, N]⟩ : Shape).Broadcasts ⟨2, ![M, N]⟩) (p : Fin M) (q : Fin N) :
    addf (matmul d none l r (constant ⟨2, ![M, N]⟩ .f32 0x00000000#32)) (broadcastTo ⟨2, ![M, N]⟩ (shapeCast ⟨2, ![1, N]⟩ b h) h') (ix2 p q)
      = linRow (fun k => l (ix2 p k)) r b q := by
  subst hd
  rw [addf_apply, biasRows_apply]
  exact congrArg (· + b (ix1 q)) (plain_matmul M K N l r p q)

/-- THE HOST'S LINEAR LAYER at entry (p, q): the general dot product plus the bias rows is the same `linRow`. -/
theorem dot_bias_at {φ₁ φ₂ : FTy} (M K N : ℕ) (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (b : FVec Ideal ⟨1, ![N]⟩ .f32)
    (h : (⟨1, ![N]⟩ : Shape).BroadcastsInDim ⟨2, ![1, N]⟩ ![1]) (h' : (⟨2, ![1, N]⟩ : Shape).BroadcastsInDim ⟨2, ![M, N]⟩ ![0, 1]) (p : Fin M) (q : Fin N) :
    addf (Host.dotGeneral d none l r) (broadcastInDim ⟨2, ![M, N]⟩ ![0, 1] h' (broadcastInDim ⟨2, ![1, N]⟩ ![1] h b)) (ix2 p q)
      = linRow (fun k => l (ix2 p k)) r b q := by
  subst hd
  rw [addf_apply, biasRowsInDim_apply]
  exact congrArg (· + b (ix1 q)) (plain_dotGeneral M K N _ l r p q)

/-- Two rows that agree entry by entry, through weights and biases that agree, give the same layer entry. -/
theorem linRow_congr {K C : ℕ} {x x' : Fin K → EReal} {w w' : (⟨2, ![K, C]⟩ : Shape).Idx → EReal} {b b' : (⟨1, ![C]⟩ : Shape).Idx → EReal}
    (hx : ∀ k, x k = x' k) (hw : w = w') (hb : b = b') (c : Fin C) : linRow x w b c = linRow x' w' b' c := by
  subst hw; subst hb
  exact congrArg (· + b (ix1 c)) (Finset.sum_congr rfl fun k _ => by rw [hx k])

end Cert.LibPlainDot

end
-- ==== Proof.KIPayload.lean ====
/-
  The value the kernel's body stores, read at one entry of its 2048×128 block, on the extended reals.

  The body multiplies the input block by the three input-gate matrices laid side by side (128×384), the sequence
  block by the three sequence-gate matrices likewise, the hidden block by the hidden r- and z-gate matrices (128×256),
  adds the fused bias rows, cuts the products apart again by column ranges of 128, and combines them. Entry (y, j) of
  the stored block is therefore the row function Cert.GruSpec.cell of row y of the three blocks, with gate g's weight
  matrix the columns 128·g … 128·g+127 of its fused matrix, and its bias those entries of the fused bias row.
-/
import proofs.«136767_j63814624084652_2_alg».proof.Proof.Gen.KernelIdeal.Skeleton
import proofs.«136767_j63814624084652_2_alg».proof.Proof.Spec
import proofs.«136767_j63814624084652_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx Cert.GruSpec Cert.LibPlainDot

/-! ## Column ranges of the fused arrays -/

/-- Column j of the g-th 128-wide range of a 384-wide array. -/
abbrev col3 (g : Fin 3) (j : Fin 128) : Fin 384 := ⟨128 * g.val + j.val, by have := g.isLt; have := j.isLt; omega⟩
/-- Column j of the g-th 128-wide range of a 256-wide array. -/
abbrev col2 (g : Fin 2) (j : Fin 128) : Fin 256 := ⟨128 * g.val + j.val, by have := g.isLt; have := j.isLt; omega⟩

/-! ## The three matrix products are plain products -/

theorem dims384 : dot_S2048x128_S128x384_S2048x384_1_0_0_1_n_n = DotDims.plain 2048 128 384 := rfl
theorem dims256 : dot_S2048x128_S128x256_S2048x256_1_0_0_1_n_n = DotDims.plain 2048 128 256 := rfl
theorem dims128 : dot_S2048x128_S128x128_S2048x128_1_0_0_1_n_n = DotDims.plain 2048 128 128 := rfl

theorem mm384 {φ₁ φ₂ : FTy} (l : FVec Ideal S2048x128 φ₁) (r : FVec Ideal S128x384 φ₂) (y : Fin 2048) (c : Fin 384) :
    matmul dot_S2048x128_S128x384_S2048x384_1_0_0_1_n_n none l r (constant S2048x384 .f32 0x00000000#32) (ix2 y c)
      = ∑ k : Fin 128, l (ix2 y k) * r (ix2 k c) := by
  rw [dims384]; exact plain_matmul 2048 128 384 l r y c

theorem mm256 {φ₁ φ₂ : FTy} (l : FVec Ideal S2048x128 φ₁) (r : FVec Ideal S128x256 φ₂) (y : Fin 2048) (c : Fin 256) :
    matmul dot_S2048x128_S128x256_S2048x256_1_0_0_1_n_n none l r (constant S2048x256 .f32 0x00000000#32) (ix2 y c)
      = ∑ k : Fin 128, l (ix2 y k) * r (ix2 k c) := by
  rw [dims256]; exact plain_matmul 2048 128 256 l r y c

theorem mm128 {φ₁ φ₂ : FTy} (l : FVec Ideal S2048x128 φ₁) (r : FVec Ideal S128x128 φ₂) (y : Fin 2048) (c : Fin 128) :
    matmul dot_S2048x128_S128x128_S2048x128_1_0_0_1_n_n none l r (constant S2048x128 .f32 0x00000000#32) (ix2 y c)
      = ∑ k : Fin 128, l (ix2 y k) * r (ix2 k c) := by
  rw [dims128]; exact plain_matmul 2048 128 128 l r y c

/-! ## The fused affine layers, entry by entry -/

/-- The input gates' fused layer: entry (y, c) is row y of the block times column c of the fused matrix, plus the
    fused bias at c. -/
theorem pay3_apply (x : Vec Ideal S2048x128 .f32) (w : Vec Ideal S128x384 .f32) (b : Vec Ideal S1x384 .f32) (y : Fin 2048) (c : Fin 384) :
    k0_pay3 (F := Ideal) x w b (ix2 y c) = (∑ k : Fin 128, x (ix2 y k) * w (ix2 k c)) + b (ix2 (0 : Fin 1) c) := by
  unfold k0_pay3
  rw [addf_apply, broadcastTo_1b_ab_apply, shapeCast_self, shapeCast_self, mm384]
  rfl

/-- The sequence gates' fused layer, likewise. -/
theorem pay4_apply (x : Vec Ideal S2048x128 .f32) (w : Vec Ideal S128x384 .f32) (b : Vec Ideal S1x384 .f32) (y : Fin 2048) (c : Fin 384) :
    k0_pay4 (F := Ideal) x w b (ix2 y c) = (∑ k : Fin 128, x (ix2 y k) * w (ix2 k c)) + b (ix2 (0 : Fin 1) c) := by
  unfold k0_pay4
  rw [addf_apply, broadcastTo_1b_ab_apply, shapeCast_self, shapeCast_self, mm384]
  rfl

/-- The hidden r- and z-gates' fused layer, likewise, 256 wide. -/
theorem pay5_apply (x : Vec Ideal S2048x128 .f32) (w : Vec Ideal S128x256 .f32) (b : Vec Ideal S1x256 .f32) (y : Fin 2048) (c : Fin 256) :
    k0_pay5 (F := Ideal) x w b (ix2 y c) = (∑ k : Fin 128, x (ix2 y k) * w (ix2 k c)) + b (ix2 (0 : Fin 1) c) := by
  unfold k0_pay5
  rw [addf_apply, broadcastTo_1b_ab_apply, shapeCast_self, shapeCast_self, mm256]
  rfl

/-! ## The column ranges cut out of the fused layers -/

/-- The three 128-wide column ranges of a 2048×384 array and the two of a 2048×256 array, read at an entry. -/
theorem slice3a_apply {α : Type} (v : S2048x384.Idx → α) (h : S2048x384.Slices ![0, 0] S2048x128) (y : Fin 2048) (j : Fin 128) :
    extractStridedSlice S2048x128 ![0, 0] v h (ix2 y j) = v (ix2 y (col3 0 j)) :=
  extractStridedSlice_apply _ v h (ix2 y j) (ix2 y (col3 0 j)) (fun a => by
    match a with
    | ⟨0, _⟩ => exact (Nat.zero_add _).symm
    | ⟨1, _⟩ => rfl)
theorem slice3b_apply {α : Type} (v : S2048x384.Idx → α) (h : S2048x384.Slices ![0, 128] S2048x128) (y : Fin 2048) (j : Fin 128) :
    extractStridedSlice S2048x128 ![0, 128] v h (ix2 y j) = v (ix2 y (col3 1 j)) :=
  extractStridedSlice_apply _ v h (ix2 y j) (ix2 y (col3 1 j)) (fun a => by
    match a with
    | ⟨0, _⟩ => exact (Nat.zero_add _).symm
    | ⟨1, _⟩ => rfl)
theorem slice3c_apply {α : Type} (v : S2048x384.Idx → α) (h : S2048x384.Slices ![0, 256] S2048x128) (y : Fin 2048) (j : Fin 128) :
    extractStridedSlice S2048x128 ![0, 256] v h (ix2 y j) = v (ix2 y (col3 2 j)) :=
  extractStridedSlice_apply _ v h (ix2 y j) (ix2 y (col3 2 j)) (fun a => by
    match a with
    | ⟨0, _⟩ => exact (Nat.zero_add _).symm
    | ⟨1, _⟩ => rfl)
theorem slice2a_apply {α : Type} (v : S2048x256.Idx → α) (h : S2048x256.Slices ![0, 0] S2048x128) (y : Fin 2048) (j : Fin 128) :
    extractStridedSlice S2048x128 ![0, 0] v h (ix2 y j) = v (ix2 y (col2 0 j)) :=
  extractStridedSlice_apply _ v h (ix2 y j) (ix2 y (col2 0 j)) (fun a => by
    match a with
    | ⟨0, _⟩ => exact (Nat.zero_add _).symm
    | ⟨1, _⟩ => rfl)
theorem slice2b_apply {α : Type} (v : S2048x256.Idx → α) (h : S2048x256.Slices ![0, 128] S2048x128) (y : Fin 2048) (j : Fin 128) :
    extractStridedSlice S2048x128 ![0, 128] v h (ix2 y j) = v (ix2 y (col2 1 j)) :=
  extractStridedSlice_apply _ v h (ix2 y j) (ix2 y (col2 1 j)) (fun a => by
    match a with
    | ⟨0, _⟩ => exact (Nat.zero_add _).symm
    | ⟨1, _⟩ => rfl)

theorem pay6_apply (x : Vec Ideal S2048x128 .f32) (w : Vec Ideal S128x384 .f32) (b : Vec Ideal S1x384 .f32) (y : Fin 2048) (j : Fin 128) :
    k0_pay6 (F := Ideal) x w b (ix2 y j) = k0_pay3 (F := Ideal) x w b (ix2 y (col3 0 j)) := by
  unfold k0_pay6
  exact slice3a_apply _ _ y j
theorem pay7_apply (x : Vec Ideal S2048x128 .f32) (w : Vec Ideal S128x384 .f32) (b : Vec Ideal S1x384 .f32) (y : Fin 2048) (j : Fin 128) :
    k0_pay7 (F := Ideal) x w b (ix2 y j) = k0_pay3 (F := Ideal) x w b (ix2 y (col3 1 j)) := by
  unfold k0_pay7
  exact slice3b_apply _ _ y j
theorem pay8_apply (x : Vec Ideal S2048x128 .f32) (w : Vec Ideal S128x384 .f32) (b : Vec Ideal S1x384 .f32) (y : Fin 2048) (j : Fin 128) :
    k0_pay8 (F := Ideal) x w b (ix2 y j) = k0_pay3 (F := Ideal) x w b (ix2 y (col3 2 j)) := by
  unfold k0_pay8
  exact slice3c_apply _ _ y j
theorem pay9_apply (x : Vec Ideal S2048x128 .f32) (w : Vec Ideal S128x384 .f32) (b : Vec Ideal S1x384 .f32) (y : Fin 2048) (j : Fin 128) :
    k0_pay9 (F := Ideal) x w b (ix2 y j) = k0_pay4 (F := Ideal) x w b (ix2 y (col3 0 j)) := by
  unfold k0_pay9
  exact slice3a_apply _ _ y j

/-! ## The combination -/

theorem logistic_apply {s : Shape} {φ : FTy} (a : FVec Ideal s φ) (i : s.Idx) : logistic a i = Ideal.logistic (a i) := rfl
theorem tanh_apply {s : Shape} {φ : FTy} (a : FVec Ideal s φ) (i : s.Idx) : tanh a i = Ideal.tanh (a i) := rfl

/-- The stored value at entry (y, j), of the fused layers' results: the gates are means of two logistic values, the
    candidate a hyperbolic tangent of three affine terms, the third a product with the candidate weights of the
    reset-gated hidden row. -/
theorem pay1_apply (v0 : Vec Ideal S2048x128 .f32) (v16 : FVec Ideal S128x128 .bf16) (v26 : FVec Ideal S2048x384 .f32)
    (v31 : FVec Ideal S2048x256 .f32) (v32 v33 v34 v35 : FVec Ideal S2048x128 .f32) (v57 : Vec Ideal S1x128 .f32) (y : Fin 2048) (j : Fin 128) :
    k0_pay1 (F := Ideal) v0 v16 v26 v31 v32 v33 v34 v35 v57 (ix2 y j) =
      (one - gate (v33 (ix2 y j)) (v26 (ix2 y (col3 1 j))) (v31 (ix2 y (col2 1 j))))
          * Ideal.tanh ((v34 (ix2 y j) + v26 (ix2 y (col3 2 j)))
              + ((∑ k : Fin 128, (gate (v32 (ix2 y k)) (v35 (ix2 y k)) (v31 (ix2 y (col2 0 k))) * v0 (ix2 y k)) * v16 (ix2 k j))
                  + v57 (ix2 (0 : Fin 1) j)))
        + gate (v33 (ix2 y j)) (v26 (ix2 y (col3 1 j))) (v31 (ix2 y (col2 1 j))) * v0 (ix2 y j) := by
  unfold k0_pay1
  simp only [addf_apply, mulf_apply, subf_apply, logistic_apply, tanh_apply, broadcast_apply, truncf_apply,
    slice3b_apply, slice3c_apply, slice2a_apply, slice2b_apply, mm128, broadcastTo_1b_ab_apply, shapeCast_self,
    logistic_eq_sigm]
  rfl

/-- THE STORED BLOCK at entry (y, j): the row function of row y of the three blocks, each gate's weights and bias the
    gate's column range of its fused array. -/
theorem stored_apply (x s h : Vec Ideal S2048x128 .f32) (wx : Vec Ideal S128x384 .f32) (bx : Vec Ideal S1x384 .f32)
    (ws : Vec Ideal S128x384 .f32) (bs : Vec Ideal S1x384 .f32) (wh : Vec Ideal S128x256 .f32) (bh : Vec Ideal S1x256 .f32)
    (wn : Vec Ideal S128x128 .f32) (bn : Vec Ideal S1x128 .f32) (y : Fin 2048) (j : Fin 128) :
    k0_pay1 (F := Ideal) h (k0_pay2 wn) (k0_pay4 s ws bs) (k0_pay5 h wh bh) (k0_pay6 x wx bx) (k0_pay7 x wx bx) (k0_pay8 x wx bx)
        (k0_pay9 s ws bs) bn (ix2 y j) =
      cell (fun k => x (ix2 y k)) (fun k => s (ix2 y k)) (fun k => h (ix2 y k))
        (fun k j => wx (ix2 k (col3 0 j))) (fun k j => wx (ix2 k (col3 1 j))) (fun k j => wx (ix2 k (col3 2 j)))
        (fun k j => ws (ix2 k (col3 0 j))) (fun k j => ws (ix2 k (col3 1 j))) (fun k j => ws (ix2 k (col3 2 j)))
        (fun k j => wh (ix2 k (col2 0 j))) (fun k j => wh (ix2 k (col2 1 j))) (fun k j => wn (ix2 k j))
        (fun j => bx (ix2 (0 : Fin 1) (col3 0 j))) (fun j => bx (ix2 (0 : Fin 1) (col3 1 j))) (fun j => bx (ix2 (0 : Fin 1) (col3 2 j)))
        (fun j => bs (ix2 (0 : Fin 1) (col3 0 j))) (fun j => bs (ix2 (0 : Fin 1) (col3 1 j))) (fun j => bs (ix2 (0 : Fin 1) (col3 2 j)))
        (fun j => bh (ix2 (0 : Fin 1) (col2 0 j))) (fun j => bh (ix2 (0 : Fin 1) (col2 1 j))) (fun j => bn (ix2 (0 : Fin 1) j)) j := by
  rw [pay1_apply]
  simp only [pay6_apply, pay7_apply, pay8_apply, pay9_apply, pay3_apply, pay4_apply, pay5_apply]
  rfl

end Cert.KernelIdeal.Payload

end
-- ==== Proof.LibNary3.lean ====
/-
  A three-operand host operation's result with each operand's contents read at its own reference.

  The library reads the result of an n-ary host operation (a concatenation prints as one) as its function applied to the
  family k ↦ (contents of operand k). When the three operands are a literal family ![x, a, b], the same result is the
  function applied to the three contents listed one by one. In that form a chain of host operations can go on being
  read operand by operand: under the family's binder the reference ![x, a, b] k is not a literal reference, and no
  lemma about an earlier operation's result at a literal reference applies to it.
-/
import Idealize.ShloMosaic.Lib.StableHlo.Run

noncomputable section

namespace Cert.LibNary3

open Idealize.ShloMosaic Idealize.ShloMosaic.TcCoe Idealize.ShloMosaic.StableHlo

variable {τ : Topo} {sig : RefSig} {Val : EltTy → Type}

/-- The result of a three-operand operation over the literal family ![x, a, b], at its own result buffer: its function
    of the three operands' contents, each at its own reference. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- Reads a chain of host operations' results outermost first, like the library's tactic for it, with the three-operand
    form above tried before the general n-ary one. -/
macro "host_results3" : tactic =>
  `(tactic| (simp only [after_cons, after_nil]
             repeat (first
               | rw [nullary_result] | rw [unary_result] | rw [binary_result]
               | rw [reshape_result] | rw [nary3_result] | rw [nary_result]
               | (rw [nullary_result_ne]; rotate_left; decide)
               | (rw [unary_result_ne]; rotate_left; decide)
               | (rw [binary_result_ne]; rotate_left; decide)
               | (rw [reshape_result_ne]; rotate_left; decide)
               | (rw [nary_result_ne]; rotate_left; decide))))

end Cert.LibNary3

end
-- ==== Proof.KIHost.lean ====
/-
  What the kernel's region finds in the seven arrays the host lines wrote, entry by entry.

  Before the region the host lays the three input-gate weight matrices side by side into a 128×384 array (columns
  0–127 the reset gate's, 128–255 the update gate's, 256–383 the candidate's), their bias rows end to end into a vector
  of 384 given a leading unit axis, does the same for the three sequence-gate matrices and biases and, 256 wide, for the
  hidden reset and update gates, and gives the hidden candidate's bias a leading unit axis. So entry (k, 128·g + j) of a
  fused matrix is entry (k, j) of gate g's matrix, and entry (0, 128·g + j) of a fused bias row is entry j of gate g's
  bias.
-/
import proofs.«136767_j63814624084652_2_alg».proof.Proof.KIFrame
import proofs.«136767_j63814624084652_2_alg».proof.Proof.KIPayload
import proofs.«136767_j63814624084652_2_alg».proof.Proof.LibNary3

noncomputable section

namespace Cert.KernelIdeal.HostArrays

open Cert.KernelIdeal Cert.KernelIdeal.Gen Cert.KernelIdeal.Hand Cert.KernelIdeal.Payload
open Idealize.ShloMosaic Idealize.ShloMosaic.TcCoe Idealize.SL.Sem Idealize.ShloMosaic.ValueIdx Cert.LibNary3

/-! ## Pieces laid side by side, read at an entry -/

/-- Three 128×128 matrices laid side by side along the columns: column 128·g + j is column j of the g-th. -/
theorem cat3_cols {α : Type} (A B C : S128x128.Idx → α) (h : Shape.Concatenates [S128x128, S128x128, S128x128] S128x384 1)
    (k j : Fin 128) :
    concatenate S128x384 1 [⟨S128x128, A⟩, ⟨S128x128, B⟩, ⟨S128x128, C⟩] h (ix2 k (col3 0 j)) = A (ix2 k j)
    ∧ concatenate S128x384 1 [⟨S128x128, A⟩, ⟨S128x128, B⟩, ⟨S128x128, C⟩] h (ix2 k (col3 1 j)) = B (ix2 k j)
    ∧ concatenate S128x384 1 [⟨S128x128, A⟩, ⟨S128x128, B⟩, ⟨S128x128, C⟩] h (ix2 k (col3 2 j)) = C (ix2 k j) := by
  refine ⟨?_, ?_, ?_⟩
  · exact concatenate_apply_piece (t := S128x384) 1 ([⟨S128x128, A⟩, ⟨S128x128, B⟩, ⟨S128x128, C⟩] : List ((s : Shape) × (s.Idx → α))) h (ix2 k (col3 0 j)) 0 (by show 0 < 3; omega) S128x128 A rfl rfl 0 rfl (ix2 k j)
      (fun b hb => by match b with | ⟨0, _⟩ => rfl | ⟨1, _⟩ => exact absurd rfl hb)
      (by show 0 + j.val = 128 * 0 + j.val; omega)
  · exact concatenate_apply_piece (t := S128x384) 1 ([⟨S128x128, A⟩, ⟨S128x128, B⟩, ⟨S128x128, C⟩] : List ((s : Shape) × (s.Idx → α))) h (ix2 k (col3 1 j)) 1 (by show 1 < 3; omega) S128x128 B rfl rfl 128 rfl (ix2 k j)
      (fun b hb => by match b with | ⟨0, _⟩ => rfl | ⟨1, _⟩ => exact absurd rfl hb)
      (by show 128 + j.val = 128 * 1 + j.val; omega)
  · exact concatenate_apply_piece (t := S128x384) 1 ([⟨S128x128, A⟩, ⟨S128x128, B⟩, ⟨S128x128, C⟩] : List ((s : Shape) × (s.Idx → α))) h (ix2 k (col3 2 j)) 2 (by show 2 < 3; omega) S128x128 C rfl rfl 256 rfl (ix2 k j)
      (fun b hb => by match b with | ⟨0, _⟩ => rfl | ⟨1, _⟩ => exact absurd rfl hb)
      (by show 256 + j.val = 128 * 2 + j.val; omega)

/-- Two 128×128 matrices laid side by side along the columns. -/
theorem cat2_cols {α : Type} (A B : S128x128.Idx → α) (h : Shape.Concatenates [S128x128, S128x128] S128x256 1) (k j : Fin 128) :
    concatenate S128x256 1 [⟨S128x128, A⟩, ⟨S128x128, B⟩] h (ix2 k (col2 0 j)) = A (ix2 k j)
    ∧ concatenate S128x256 1 [⟨S128x128, A⟩, ⟨S128x128, B⟩] h (ix2 k (col2 1 j)) = B (ix2 k j) := by
  refine ⟨?_, ?_⟩
  · exact concatenate_apply_piece (t := S128x256) 1 ([⟨S128x128, A⟩, ⟨S128x128, B⟩] : List ((s : Shape) × (s.Idx → α))) h (ix2 k (col2 0 j)) 0 (by show 0 < 2; omega) S128x128 A rfl rfl 0 rfl (ix2 k j)
      (fun b hb => by match b with | ⟨0, _⟩ => rfl | ⟨1, _⟩ => exact absurd rfl hb)
      (by show 0 + j.val = 128 * 0 + j.val; omega)
  · exact concatenate_apply_piece (t := S128x256) 1 ([⟨S128x128, A⟩, ⟨S128x128, B⟩] : List ((s : Shape) × (s.Idx → α))) h (ix2 k (col2 1 j)) 1 (by show 1 < 2; omega) S128x128 B rfl rfl 128 rfl (ix2 k j)
      (fun b hb => by match b with | ⟨0, _⟩ => rfl | ⟨1, _⟩ => exact absurd rfl hb)
      (by show 128 + j.val = 128 * 1 + j.val; omega)

/-- Three vectors of 128 laid end to end: entry 128·g + j is entry j of the g-th. -/
theorem cat3_vec {α : Type} (a b c : S128.Idx → α) (h : Shape.Concatenates [S128, S128, S128] S384 0) (j : Fin 128) :
    concatenate S384 0 [⟨S128, a⟩, ⟨S128, b⟩, ⟨S128, c⟩] h (ix1 (col3 0 j)) = a (ix1 j)
    ∧ concatenate S384 0 [⟨S128, a⟩, ⟨S128, b⟩, ⟨S128, c⟩] h (ix1 (col3 1 j)) = b (ix1 j)
    ∧ concatenate S384 0 [⟨S128, a⟩, ⟨S128, b⟩, ⟨S128, c⟩] h (ix1 (col3 2 j)) = c (ix1 j) := by
  refine ⟨?_, ?_, ?_⟩
  · exact concatenate_apply_piece (t := S384) 0 ([⟨S128, a⟩, ⟨S128, b⟩, ⟨S128, c⟩] : List ((s : Shape) × (s.Idx → α))) h (ix1 (col3 0 j)) 0 (by show 0 < 3; omega) S128 a rfl rfl 0 rfl (ix1 j)
      (fun b hb => by match b with | ⟨0, _⟩ => exact absurd rfl hb)
      (by show 0 + j.val = 128 * 0 + j.val; omega)
  · exact concatenate_apply_piece (t := S384) 0 ([⟨S128, a⟩, ⟨S128, b⟩, ⟨S128, c⟩] : List ((s : Shape) × (s.Idx → α))) h (ix1 (col3 1 j)) 1 (by show 1 < 3; omega) S128 b rfl rfl 128 rfl (ix1 j)
      (fun b hb => by match b with | ⟨0, _⟩ => exact absurd rfl hb)
      (by show 128 + j.val = 128 * 1 + j.val; omega)
  · exact concatenate_apply_piece (t := S384) 0 ([⟨S128, a⟩, ⟨S128, b⟩, ⟨S128, c⟩] : List ((s : Shape) × (s.Idx → α))) h (ix1 (col3 2 j)) 2 (by show 2 < 3; omega) S128 c rfl rfl 256 rfl (ix1 j)
      (fun b hb => by match b with | ⟨0, _⟩ => exact absurd rfl hb)
      (by show 256 + j.val = 128 * 2 + j.val; omega)

/-- Two vectors of 128 laid end to end. -/
theorem cat2_vec {α : Type} (a b : S128.Idx → α) (h : Shape.Concatenates [S128, S128] S256 0) (j : Fin 128) :
    concatenate S256 0 [⟨S128, a⟩, ⟨S128, b⟩] h (ix1 (col2 0 j)) = a (ix1 j)
    ∧ concatenate S256 0 [⟨S128, a⟩, ⟨S128, b⟩] h (ix1 (col2 1 j)) = b (ix1 j) := by
  refine ⟨?_, ?_⟩
  · exact concatenate_apply_piece (t := S256) 0 ([⟨S128, a⟩, ⟨S128, b⟩] : List ((s : Shape) × (s.Idx → α))) h (ix1 (col2 0 j)) 0 (by show 0 < 2; omega) S128 a rfl rfl 0 rfl (ix1 j)
      (fun b hb => by match b with | ⟨0, _⟩ => exact absurd rfl hb)
      (by show 0 + j.val = 128 * 0 + j.val; omega)
  · exact concatenate_apply_piece (t := S256) 0 ([⟨S128, a⟩, ⟨S128, b⟩] : List ((s : Shape) × (s.Idx → α))) h (ix1 (col2 1 j)) 1 (by show 1 < 2; omega) S128 b rfl rfl 128 rfl (ix1 j)
      (fun b hb => by match b with | ⟨0, _⟩ => exact absurd rfl hb)
      (by show 128 + j.val = 128 * 1 + j.val; omega)

/-! ## The seven host results as terms of the launch contents -/

variable (m : (ℓ : Loc nD τ sig) → Buf (Elt Ideal) ℓ)

/-- The fused input-gate weights. -/
def fusedWx (c : Dev nD) : S128x384.Idx → EReal :=
  concatenate S128x384 1 [⟨S128x128, m ((c : Thread nD τ).loc main_arg3)⟩, ⟨S128x128, m ((c : Thread nD τ).loc main_arg5)⟩,
    ⟨S128x128, m ((c : Thread nD τ).loc main_arg7)⟩] concatenates_S128x128_S128x128_S128x128_S128x384_d1
/-- The fused input-gate bias row. -/
def fusedBx (c : Dev nD) : S1x384.Idx → EReal :=
  shapeCast S1x384 (concatenate S384 0 [⟨S128, m ((c : Thread nD τ).loc main_arg4)⟩, ⟨S128, m ((c : Thread nD τ).loc main_arg6)⟩,
    ⟨S128, m ((c : Thread nD τ).loc main_arg8)⟩] concatenates_S128_S128_S128_S384_d0) shapeCasts_S384_S1x384
/-- The fused sequence-gate weights. -/
def fusedWs (c : Dev nD) : S128x384.Idx → EReal :=
  concatenate S128x384 1 [⟨S128x128, m ((c : Thread nD τ).loc main_arg9)⟩, ⟨S128x128, m ((c : Thread nD τ).loc main_arg11)⟩,
    ⟨S128x128, m ((c : Thread nD τ).loc main_arg13)⟩] concatenates_S128x128_S128x128_S128x128_S128x384_d1
/-- The fused sequence-gate bias row. -/
def fusedBs (c : Dev nD) : S1x384.Idx → EReal :=
  shapeCast S1x384 (concatenate S384 0 [⟨S128, m ((c : Thread nD τ).loc main_arg10)⟩, ⟨S128, m ((c : Thread nD τ).loc main_arg12)⟩,
    ⟨S128, m ((c : Thread nD τ).loc main_arg14)⟩] concatenates_S128_S128_S128_S384_d0) shapeCasts_S384_S1x384
/-- The fused hidden reset- and update-gate weights. -/
def fusedWh (c : Dev nD) : S128x256.Idx → EReal :=
  concatenate S128x256 1 [⟨S128x128, m ((c : Thread nD τ).loc main_arg15)⟩, ⟨S128x128, m ((c : Thread nD τ).loc main_arg17)⟩]
    concatenates_S128x128_S128x128_S128x256_d1
/-- The fused hidden reset- and update-gate bias row. -/
def fusedBh (c : Dev nD) : S1x256.Idx → EReal :=
  shapeCast S1x256 (concatenate S256 0 [⟨S128, m ((c : Thread nD τ).loc main_arg16)⟩, ⟨S128, m ((c : Thread nD τ).loc main_arg18)⟩]
    concatenates_S128_S128_S256_d0) shapeCasts_S256_S1x256
/-- The hidden candidate's bias as a one-row matrix. -/
def rowBn (c : Dev nD) : S1x128.Idx → EReal :=
  shapeCast S1x128 (m ((c : Thread nD τ).loc main_arg20)) shapeCasts_S128_S1x128

set_option maxHeartbeats 1000000 in
theorem V_v0 (c : Dev nD) : (V m c main_v0 : S128x384.Idx → EReal) = fusedWx m c := by
  unfold fusedWx; dsimp only [V]
  simp only [hostOps0, List.flatten_cons, List.flatten_nil, List.append_nil]
  host_results3
  all_goals rfl
set_option maxHeartbeats 1000000 in
theorem V_v2 (c : Dev nD) : (V m c main_v2 : S1x384.Idx → EReal) = fusedBx m c := by
  unfold fusedBx; dsimp only [V]
  simp only [hostOps0, List.flatten_cons, List.flatten_nil, List.append_nil]
  host_results3
  all_goals rfl
set_option maxHeartbeats 1000000 in
theorem V_v3 (c : Dev nD) : (V m c main_v3 : S128x384.Idx → EReal) = fusedWs m c := by
  unfold fusedWs; dsimp only [V]
  simp only [hostOps0, List.flatten_cons, List.flatten_nil, List.append_nil]
  host_results3
  all_goals rfl
set_option maxHeartbeats 1000000 in
theorem V_v5 (c : Dev nD) : (V m c main_v5 : S1x384.Idx → EReal) = fusedBs m c := by
  unfold fusedBs; dsimp only [V]
  simp only [hostOps0, List.flatten_cons, List.flatten_nil, List.append_nil]
  host_results3
  all_goals rfl
set_option maxHeartbeats 1000000 in
theorem V_v6 (c : Dev nD) : (V m c main_v6 : S128x256.Idx → EReal) = fusedWh m c := by
  unfold fusedWh; dsimp only [V]
  simp only [hostOps0, List.flatten_cons, List.flatten_nil, List.append_nil]
  host_results3
  all_goals rfl
set_option maxHeartbeats 1000000 in
theorem V_v8 (c : Dev nD) : (V m c main_v8 : S1x256.Idx → EReal) = fusedBh m c := by
  unfold fusedBh; dsimp only [V]
  simp only [hostOps0, List.flatten_cons, List.flatten_nil, List.append_nil]
  host_results3
  all_goals rfl
set_option maxHeartbeats 1000000 in
theorem V_v9 (c : Dev nD) : (V m c main_v9 : S1x128.Idx → EReal) = rowBn m c := by
  unfold rowBn; dsimp only [V]
  simp only [hostOps0, List.flatten_cons, List.flatten_nil, List.append_nil]
  host_results3
  all_goals rfl

end Cert.KernelIdeal.HostArrays

end
-- ==== Proof.KIValue.lean ====
/-
  The kernel's result array is the specification's array of the argument arrays.

  Grid point t works on rows 2048·t … 2048·t+2047: it finds those rows of the three activation arrays in its first
  three buffers and the seven fused weight and bias arrays whole in the next eight, and writes the stored block back to
  those rows of the result. Entry (y, j) of the stored block is the row function of row y of the three blocks with
  each gate's weights a column range of a fused matrix (the payload module); row y of block t is row 2048·t + y of the
  array, and a gate's column range of a fused array is that gate's own argument array (the host-arrays module). So
  point t writes back exactly rows 2048·t … of the specification's array, and the 64 blocks cover all 131072 rows.
-/
import proofs.«136767_j63814624084652_2_alg».proof.Proof.KIHost
import proofs.«136767_j63814624084652_2_alg».proof.Proof.Spec
import Idealize.ShloMosaic.Lib.Pipeline.Value

noncomputable section

namespace Cert.KernelIdeal.KValue

open Cert.KernelIdeal Cert.KernelIdeal.Gen Cert.KernelIdeal.Hand Cert.KernelIdeal.Payload Cert.KernelIdeal.HostArrays
open Idealize.ShloMosaic Idealize.ShloMosaic.TcCoe Idealize.SL.Sem Idealize.ShloMosaic.ValueIdx Cert.GruSpec
open Idealize.ShloMosaic.Pipeline (Dat)

/-! ## Where each window's block sits -/

theorem lt64 (t : Fin cfg0.N) : t.val < 64 := by
  exact lt_of_lt_of_eq t.isLt (N_0 : cfg0.N = 64)

/-- Row y of grid point t's block is row 2048·t + y of the array. -/
abbrev rowOf (t : Fin cfg0.N) (y : Fin 2048) : Fin 131072 := ⟨2048 * t.val + y.val, by have := lt64 t; have := y.isLt; omega⟩

theorem zero_off : (![0, 0] : Fin 2 → Nat) = fun _ => 0 := funext fun a => by fin_cases a <;> rfl

/-- The printed index maps, decided over the 64 grid points: the activation windows and the result window sit at block
    (t, 0), the weight and bias windows at block (0, 0). -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem idx10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
theorem idx11 : ∀ t : Fin cfg0.N, win0_11.index t (0 : Fin 2) = t.val ∧ win0_11.index t (1 : Fin 2) = 0 :=
  (by decide +kernel : ∀ t : Fin grid0.N, win0_11.index t (0 : Fin 2) = t.val ∧ win0_11.index t (1 : Fin 2) = 0)

/-! ## A block of any array, read at an entry -/

theorem read_w0 (A : S131072x128.Idx → EReal) (t : Fin cfg0.N) (y : Fin 2048) (k : Fin 128) :
    ((cfg0.win 0).blk t).view.read (Elt Ideal) A (ix2 y k) = A (ix2 (rowOf t y) k) := by
  have e : ((cfg0.win 0).blk t).view.emb (ix2 y k) = ix2 (rowOf t y) k := by
    funext a; apply Fin.ext
    match a with
    | ⟨0, _⟩ => show win0_0.index t (0 : Fin 2) * 2048 + 1 * y.val = 2048 * t.val + y.val; rw [(idx0 t).1]; omega
    | ⟨1, _⟩ => show win0_0.index t (1 : Fin 2) * 128 + 1 * k.val = k.val; rw [(idx0 t).2]; omega
  show A (((cfg0.win 0).blk t).view.emb (ix2 y k)) = _
  rw [e]
theorem read_w1 (A : S131072x128.Idx → EReal) (t : Fin cfg0.N) (y : Fin 2048) (k : Fin 128) :
    ((cfg0.win 1).blk t).view.read (Elt Ideal) A (ix2 y k) = A (ix2 (rowOf t y) k) := by
  have e : ((cfg0.win 1).blk t).view.emb (ix2 y k) = ix2 (rowOf t y) k := by
    funext a; apply Fin.ext
    match a with
    | ⟨0, _⟩ => show win0_1.index t (0 : Fin 2) * 2048 + 1 * y.val = 2048 * t.val + y.val; rw [(idx1 t).1]; omega
    | ⟨1, _⟩ => show win0_1.index t (1 : Fin 2) * 128 + 1 * k.val = k.val; rw [(idx1 t).2]; omega
  show A (((cfg0.win 1).blk t).view.emb (ix2 y k)) = _
  rw [e]
theorem read_w2 (A : S131072x128.Idx → EReal) (t : Fin cfg0.N) (y : Fin 2048) (k : Fin 128) :
    ((cfg0.win 2).blk t).view.read (Elt Ideal) A (ix2 y k) = A (ix2 (rowOf t y) k) := by
  have e : ((cfg0.win 2).blk t).view.emb (ix2 y k) = ix2 (rowOf t y) k := by
    funext a; apply Fin.ext
    match a with
    | ⟨0, _⟩ => show win0_2.index t (0 : Fin 2) * 2048 + 1 * y.val = 2048 * t.val + y.val; rw [(idx2 t).1]; omega
    | ⟨1, _⟩ => show win0_2.index t (1 : Fin 2) * 128 + 1 * k.val = k.val; rw [(idx2 t).2]; omega
  show A (((cfg0.win 2).blk t).view.emb (ix2 y k)) = _
  rw [e]
theorem read_w11 (A : S131072x128.Idx → EReal) (t : Fin cfg0.N) (y : Fin 2048) (k : Fin 128) :
    ((cfg0.win 11).blk t).view.read (Elt Ideal) A (ix2 y k) = A (ix2 (rowOf t y) k) := by
  have e : ((cfg0.win 11).blk t).view.emb (ix2 y k) = ix2 (rowOf t y) k := by
    funext a; apply Fin.ext
    match a with
    | ⟨0, _⟩ => show win0_11.index t (0 : Fin 2) * 2048 + 1 * y.val = 2048 * t.val + y.val; rw [(idx11 t).1]; omega
    | ⟨1, _⟩ => show win0_11.index t (1 : Fin 2) * 128 + 1 * k.val = k.val; rw [(idx11 t).2]; omega
  show A (((cfg0.win 11).blk t).view.emb (ix2 y k)) = _
  rw [e]
theorem read_w3 (A : S128x384.Idx → EReal) (t : Fin cfg0.N) (k : Fin 128) (q : Fin 384) :
    ((cfg0.win 3).blk t).view.read (Elt Ideal) A (ix2 k q) = A (ix2 k q) := by
  have e : ((cfg0.win 3).blk t).view.emb (ix2 k q) = ix2 k q := by
    funext a; apply Fin.ext
    match a with
    | ⟨0, _⟩ => show win0_3.index t (0 : Fin 2) * 128 + 1 * k.val = k.val; rw [(idx3 t).1]; omega
    | ⟨1, _⟩ => show win0_3.index t (1 : Fin 2) * 384 + 1 * q.val = q.val; rw [(idx3 t).2]; omega
  show A (((cfg0.win 3).blk t).view.emb (ix2 k q)) = _
  rw [e]
theorem read_w4 (A : S1x384.Idx → EReal) (t : Fin cfg0.N) (u : Fin 1) (q : Fin 384) :
    ((cfg0.win 4).blk t).view.read (Elt Ideal) A (ix2 u q) = A (ix2 u q) := by
  have e : ((cfg0.win 4).blk t).view.emb (ix2 u q) = ix2 u q := by
    funext a; apply Fin.ext
    match a with
    | ⟨0, _⟩ => show win0_4.index t (0 : Fin 2) * 1 + 1 * u.val = u.val; rw [(idx4 t).1]; omega
    | ⟨1, _⟩ => show win0_4.index t (1 : Fin 2) * 384 + 1 * q.val = q.val; rw [(idx4 t).2]; omega
  show A (((cfg0.win 4).blk t).view.emb (ix2 u q)) = _
  rw [e]
theorem read_w5 (A : S128x384.Idx → EReal) (t : Fin cfg0.N) (k : Fin 128) (q : Fin 384) :
    ((cfg0.win 5).blk t).view.read (Elt Ideal) A (ix2 k q) = A (ix2 k q) := by
  have e : ((cfg0.win 5).blk t).view.emb (ix2 k q) = ix2 k q := by
    funext a; apply Fin.ext
    match a with
    | ⟨0, _⟩ => show win0_5.index t (0 : Fin 2) * 128 + 1 * k.val = k.val; rw [(idx5 t).1]; omega
    | ⟨1, _⟩ => show win0_5.index t (1 : Fin 2) * 384 + 1 * q.val = q.val; rw [(idx5 t).2]; omega
  show A (((cfg0.win 5).blk t).view.emb (ix2 k q)) = _
  rw [e]
theorem read_w6 (A : S1x384.Idx → EReal) (t : Fin cfg0.N) (u : Fin 1) (q : Fin 384) :
    ((cfg0.win 6).blk t).view.read (Elt Ideal) A (ix2 u q) = A (ix2 u q) := by
  have e : ((cfg0.win 6).blk t).view.emb (ix2 u q) = ix2 u q := by
    funext a; apply Fin.ext
    match a with
    | ⟨0, _⟩ => show win0_6.index t (0 : Fin 2) * 1 + 1 * u.val = u.val; rw [(idx6 t).1]; omega
    | ⟨1, _⟩ => show win0_6.index t (1 : Fin 2) * 384 + 1 * q.val = q.val; rw [(idx6 t).2]; omega
  show A (((cfg0.win 6).blk t).view.emb (ix2 u q)) = _
  rw [e]
theorem read_w7 (A : S128x256.Idx → EReal) (t : Fin cfg0.N) (k : Fin 128) (q : Fin 256) :
    ((cfg0.win 7).blk t).view.read (Elt Ideal) A (ix2 k q) = A (ix2 k q) := by
  have e : ((cfg0.win 7).blk t).view.emb (ix2 k q) = ix2 k q := by
    funext a; apply Fin.ext
    match a with
    | ⟨0, _⟩ => show win0_7.index t (0 : Fin 2) * 128 + 1 * k.val = k.val; rw [(idx7 t).1]; omega
    | ⟨1, _⟩ => show win0_7.index t (1 : Fin 2) * 256 + 1 * q.val = q.val; rw [(idx7 t).2]; omega
  show A (((cfg0.win 7).blk t).view.emb (ix2 k q)) = _
  rw [e]
theorem read_w8 (A : S1x256.Idx → EReal) (t : Fin cfg0.N) (u : Fin 1) (q : Fin 256) :
    ((cfg0.win 8).blk t).view.read (Elt Ideal) A (ix2 u q) = A (ix2 u q) := by
  have e : ((cfg0.win 8).blk t).view.emb (ix2 u q) = ix2 u q := by
    funext a; apply Fin.ext
    match a with
    | ⟨0, _⟩ => show win0_8.index t (0 : Fin 2) * 1 + 1 * u.val = u.val; rw [(idx8 t).1]; omega
    | ⟨1, _⟩ => show win0_8.index t (1 : Fin 2) * 256 + 1 * q.val = q.val; rw [(idx8 t).2]; omega
  show A (((cfg0.win 8).blk t).view.emb (ix2 u q)) = _
  rw [e]
theorem read_w9 (A : S128x128.Idx → EReal) (t : Fin cfg0.N) (k : Fin 128) (q : Fin 128) :
    ((cfg0.win 9).blk t).view.read (Elt Ideal) A (ix2 k q) = A (ix2 k q) := by
  have e : ((cfg0.win 9).blk t).view.emb (ix2 k q) = ix2 k q := by
    funext a; apply Fin.ext
    match a with
    | ⟨0, _⟩ => show win0_9.index t (0 : Fin 2) * 128 + 1 * k.val = k.val; rw [(idx9 t).1]; omega
    | ⟨1, _⟩ => show win0_9.index t (1 : Fin 2) * 128 + 1 * q.val = q.val; rw [(idx9 t).2]; omega
  show A (((cfg0.win 9).blk t).view.emb (ix2 k q)) = _
  rw [e]
theorem read_w10 (A : S1x128.Idx → EReal) (t : Fin cfg0.N) (u : Fin 1) (q : Fin 128) :
    ((cfg0.win 10).blk t).view.read (Elt Ideal) A (ix2 u q) = A (ix2 u q) := by
  have e : ((cfg0.win 10).blk t).view.emb (ix2 u q) = ix2 u q := by
    funext a; apply Fin.ext
    match a with
    | ⟨0, _⟩ => show win0_10.index t (0 : Fin 2) * 1 + 1 * u.val = u.val; rw [(idx10 t).1]; omega
    | ⟨1, _⟩ => show win0_10.index t (1 : Fin 2) * 128 + 1 * q.val = q.val; rw [(idx10 t).2]; omega
  show A (((cfg0.win 10).blk t).view.emb (ix2 u q)) = _
  rw [e]

/-! ## The blocks the body finds -/

variable (m : (ℓ : Loc nD τ sig) → Buf (Elt Ideal) ℓ) (ρ : Dev nD → PrngReg)

/-- The activation windows' blocks are blocks of the argument arrays as launched; -/
theorem iblk0_eq (c : Dev nD) (t : Fin cfg0.N) :
    iblk m c 0 t = ((cfg0.win 0).blk t).view.read (Elt Ideal) (m ((c : Thread nD τ).loc main_arg0)) := by
  unfold iblk; exact congrArg _ (V_main_arg0 m c)
theorem iblk1_eq (c : Dev nD) (t : Fin cfg0.N) :
    iblk m c 1 t = ((cfg0.win 1).blk t).view.read (Elt Ideal) (m ((c : Thread nD τ).loc main_arg1)) := by
  unfold iblk; exact congrArg _ (V_main_arg1 m c)
theorem iblk2_eq (c : Dev nD) (t : Fin cfg0.N) :
    iblk m c 2 t = ((cfg0.win 2).blk t).view.read (Elt Ideal) (m ((c : Thread nD τ).loc main_arg2)) := by
  unfold iblk; exact congrArg _ (V_main_arg2 m c)
/-- the weight and bias windows' blocks are blocks of the fused arrays (of the candidate's weights as launched). -/
theorem iblk3_eq (c : Dev nD) (t : Fin cfg0.N) : iblk m c 3 t = ((cfg0.win 3).blk t).view.read (Elt Ideal) (fusedWx m c) := by
  unfold iblk; exact congrArg _ (V_v0 m c)
theorem iblk4_eq (c : Dev nD) (t : Fin cfg0.N) : iblk m c 4 t = ((cfg0.win 4).blk t).view.read (Elt Ideal) (fusedBx m c) := by
  unfold iblk; exact congrArg _ (V_v2 m c)
theorem iblk5_eq (c : Dev nD) (t : Fin cfg0.N) : iblk m c 5 t = ((cfg0.win 5).blk t).view.read (Elt Ideal) (fusedWs m c) := by
  unfold iblk; exact congrArg _ (V_v3 m c)
theorem iblk6_eq (c : Dev nD) (t : Fin cfg0.N) : iblk m c 6 t = ((cfg0.win 6).blk t).view.read (Elt Ideal) (fusedBs m c) := by
  unfold iblk; exact congrArg _ (V_v5 m c)
theorem iblk7_eq (c : Dev nD) (t : Fin cfg0.N) : iblk m c 7 t = ((cfg0.win 7).blk t).view.read (Elt Ideal) (fusedWh m c) := by
  unfold iblk; exact congrArg _ (V_v6 m c)
theorem iblk8_eq (c : Dev nD) (t : Fin cfg0.N) : iblk m c 8 t = ((cfg0.win 8).blk t).view.read (Elt Ideal) (fusedBh m c) := by
  unfold iblk; exact congrArg _ (V_v8 m c)
theorem iblk9_eq (c : Dev nD) (t : Fin cfg0.N) :
    iblk m c 9 t = ((cfg0.win 9).blk t).view.read (Elt Ideal) (m ((c : Thread nD τ).loc main_arg19)) := by
  unfold iblk; exact congrArg _ (V_main_arg19 m c)
theorem iblk10_eq (c : Dev nD) (t : Fin cfg0.N) : iblk m c 10 t = ((cfg0.win 10).blk t).view.read (Elt Ideal) (rowBn m c) := by
  unfold iblk; exact congrArg _ (V_v9 m c)

/-! ## What each point writes back -/

/-- The specification's array of the launch contents of the twenty-one arguments. -/
def Gm (c : Dev nD) : S131072x128.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))
    (m ((c : Thread nD τ).loc main_arg15)) (m ((c : Thread nD τ).loc main_arg16)) (m ((c : Thread nD τ).loc main_arg17))
    (m ((c : Thread nD τ).loc main_arg18)) (m ((c : Thread nD τ).loc main_arg19)) (m ((c : Thread nD τ).loc main_arg20))

/-- POINT t WRITES BACK block t of the specification's array. -/
theorem flushed_eq (c : Dev nD) (t : Fin cfg0.N) :
    (dats m 0 c).flushed 11 t = ((cfg0.win 11).blk t).view.read (Elt Ideal) (Gm m c) := by
  show (cfg0.win 11).cut (grid0.coords t) ((dats m 0 c).after 11 t) = _
  rw [after11]
  unfold newBlock
  rw [View.canon_unit_zero zero_off]
  unfold newVal
  simp only [View.ld_unit_zero (S := S2048x128) zero_off, View.ld_unit_zero (S := S128x384) zero_off,
    View.ld_unit_zero (S := S1x384) zero_off, View.ld_unit_zero (S := S128x256) zero_off, View.ld_unit_zero (S := S1x256) zero_off,
    View.ld_unit_zero (S := S128x128) zero_off, View.ld_unit_zero (S := S1x128) zero_off]
  refine funext fun (q : S2048x128.Idx) => ?_
  obtain ⟨y, j, rfl⟩ : ∃ (y : Fin 2048) (j : Fin 128), q = ix2 y j := ⟨q 0, q 1, eq_ix2 q⟩
  refine (stored_apply (iblk m c 0 t) (iblk m c 1 t) (iblk m c 2 t) (iblk m c 3 t) (iblk m c 4 t) (iblk m c 5 t)
    (iblk m c 6 t) (iblk m c 7 t) (iblk m c 8 t) (iblk m c 9 t) (iblk m c 10 t) y j).trans ?_
  rw [read_w11 (Gm m c) t y j]
  -- row y of the three activation blocks is row 2048·t + y of the argument arrays
  have ex : (fun k => iblk m c 0 t (ix2 y k)) = fun k => m ((c : Thread nD τ).loc main_arg0) (ix2 (rowOf t y) k) :=
    funext fun k => (congrFun (iblk0_eq m c t) (ix2 y k)).trans (read_w0 _ t y k)
  have es : (fun k => iblk m c 1 t (ix2 y k)) = fun k => m ((c : Thread nD τ).loc main_arg1) (ix2 (rowOf t y) k) :=
    funext fun k => (congrFun (iblk1_eq m c t) (ix2 y k)).trans (read_w1 _ t y k)
  have eh : (fun k => iblk m c 2 t (ix2 y k)) = fun k => m ((c : Thread nD τ).loc main_arg2) (ix2 (rowOf t y) k) :=
    funext fun k => (congrFun (iblk2_eq m c t) (ix2 y k)).trans (read_w2 _ t y k)
  -- a gate's column range of a fused weight array is the gate's own matrix
  have wir : (fun k j => iblk m c 3 t (ix2 k (col3 0 j))) = fun k j => m ((c : Thread nD τ).loc main_arg3) (ix2 k j) :=
    funext fun k => funext fun j => ((congrFun (iblk3_eq m c t) _).trans (read_w3 _ t k _)).trans (cat3_cols _ _ _ _ k j).1
  have wiz : (fun k j => iblk m c 3 t (ix2 k (col3 1 j))) = fun k j => m ((c : Thread nD τ).loc main_arg5) (ix2 k j) :=
    funext fun k => funext fun j => ((congrFun (iblk3_eq m c t) _).trans (read_w3 _ t k _)).trans (cat3_cols _ _ _ _ k j).2.1
  have win : (fun k j => iblk m c 3 t (ix2 k (col3 2 j))) = fun k j => m ((c : Thread nD τ).loc main_arg7) (ix2 k j) :=
    funext fun k => funext fun j => ((congrFun (iblk3_eq m c t) _).trans (read_w3 _ t k _)).trans (cat3_cols _ _ _ _ k j).2.2
  have wsr : (fun k j => iblk m c 5 t (ix2 k (col3 0 j))) = fun k j => m ((c : Thread nD τ).loc main_arg9) (ix2 k j) :=
    funext fun k => funext fun j => ((congrFun (iblk5_eq m c t) _).trans (read_w5 _ t k _)).trans (cat3_cols _ _ _ _ k j).1
  have wsz : (fun k j => iblk m c 5 t (ix2 k (col3 1 j))) = fun k j => m ((c : Thread nD τ).loc main_arg11) (ix2 k j) :=
    funext fun k => funext fun j => ((congrFun (iblk5_eq m c t) _).trans (read_w5 _ t k _)).trans (cat3_cols _ _ _ _ k j).2.1
  have wsn : (fun k j => iblk m c 5 t (ix2 k (col3 2 j))) = fun k j => m ((c : Thread nD τ).loc main_arg13) (ix2 k j) :=
    funext fun k => funext fun j => ((congrFun (iblk5_eq m c t) _).trans (read_w5 _ t k _)).trans (cat3_cols _ _ _ _ k j).2.2
  have whr : (fun k j => iblk m c 7 t (ix2 k (col2 0 j))) = fun k j => m ((c : Thread nD τ).loc main_arg15) (ix2 k j) :=
    funext fun k => funext fun j => ((congrFun (iblk7_eq m c t) _).trans (read_w7 _ t k _)).trans (cat2_cols _ _ _ k j).1
  have whz : (fun k j => iblk m c 7 t (ix2 k (col2 1 j))) = fun k j => m ((c : Thread nD τ).loc main_arg17) (ix2 k j) :=
    funext fun k => funext fun j => ((congrFun (iblk7_eq m c t) _).trans (read_w7 _ t k _)).trans (cat2_cols _ _ _ k j).2
  have whn : (fun k j => iblk m c 9 t (ix2 k j)) = fun k j => m ((c : Thread nD τ).loc main_arg19) (ix2 k j) :=
    funext fun k => funext fun j => (congrFun (iblk9_eq m c t) _).trans (read_w9 _ t k j)
  -- and likewise of a fused bias row
  have bir : (fun j => iblk m c 4 t (ix2 (0 : Fin 1) (col3 0 j))) = fun j => m ((c : Thread nD τ).loc main_arg4) (ix1 j) :=
    funext fun j => (((congrFun (iblk4_eq m c t) _).trans (read_w4 _ t 0 _)).trans (shapeCast_a_1a_apply _ _ 0 _)).trans (cat3_vec _ _ _ _ j).1
  have biz : (fun j => iblk m c 4 t (ix2 (0 : Fin 1) (col3 1 j))) = fun j => m ((c : Thread nD τ).loc main_arg6) (ix1 j) :=
    funext fun j => (((congrFun (iblk4_eq m c t) _).trans (read_w4 _ t 0 _)).trans (shapeCast_a_1a_apply _ _ 0 _)).trans (cat3_vec _ _ _ _ j).2.1
  have bin : (fun j => iblk m c 4 t (ix2 (0 : Fin 1) (col3 2 j))) = fun j => m ((c : Thread nD τ).loc main_arg8) (ix1 j) :=
    funext fun j => (((congrFun (iblk4_eq m c t) _).trans (read_w4 _ t 0 _)).trans (shapeCast_a_1a_apply _ _ 0 _)).trans (cat3_vec _ _ _ _ j).2.2
  have bsr : (fun j => iblk m c 6 t (ix2 (0 : Fin 1) (col3 0 j))) = fun j => m ((c : Thread nD τ).loc main_arg10) (ix1 j) :=
    funext fun j => (((congrFun (iblk6_eq m c t) _).trans (read_w6 _ t 0 _)).trans (shapeCast_a_1a_apply _ _ 0 _)).trans (cat3_vec _ _ _ _ j).1
  have bsz : (fun j => iblk m c 6 t (ix2 (0 : Fin 1) (col3 1 j))) = fun j => m ((c : Thread nD τ).loc main_arg12) (ix1 j) :=
    funext fun j => (((congrFun (iblk6_eq m c t) _).trans (read_w6 _ t 0 _)).trans (shapeCast_a_1a_apply _ _ 0 _)).trans (cat3_vec _ _ _ _ j).2.1
  have bsn : (fun j => iblk m c 6 t (ix2 (0 : Fin 1) (col3 2 j))) = fun j => m ((c : Thread nD τ).loc main_arg14) (ix1 j) :=
    funext fun j => (((congrFun (iblk6_eq m c t) _).trans (read_w6 _ t 0 _)).trans (shapeCast_a_1a_apply _ _ 0 _)).trans (cat3_vec _ _ _ _ j).2.2
  have bhr : (fun j => iblk m c 8 t (ix2 (0 : Fin 1) (col2 0 j))) = fun j => m ((c : Thread nD τ).loc main_arg16) (ix1 j) :=
    funext fun j => (((congrFun (iblk8_eq m c t) _).trans (read_w8 _ t 0 _)).trans (shapeCast_a_1a_apply _ _ 0 _)).trans (cat2_vec _ _ _ j).1
  have bhz : (fun j => iblk m c 8 t (ix2 (0 : Fin 1) (col2 1 j))) = fun j => m ((c : Thread nD τ).loc main_arg18) (ix1 j) :=
    funext fun j => (((congrFun (iblk8_eq m c t) _).trans (read_w8 _ t 0 _)).trans (shapeCast_a_1a_apply _ _ 0 _)).trans (cat2_vec _ _ _ j).2
  have bhn : (fun j => iblk m c 10 t (ix2 (0 : Fin 1) j)) = fun j => m ((c : Thread nD τ).loc main_arg20) (ix1 j) :=
    funext fun j => ((congrFun (iblk10_eq m c t) _).trans (read_w10 _ t 0 j)).trans (shapeCast_a_1a_apply _ _ 0 j)
  rw [ex, es, eh, wir, wiz, win, wsr, wsz, wsn, whr, whz, whn, bir, biz, bin, bsr, bsz, bsn, bhr, bhz, bhn]
  rfl

/-! ## The blocks cover the array -/

theorem mem_blk (t : Fin cfg0.N) (i : S131072x128.Idx) :
    i ∈ ((cfg0.win 11).blk t).view.set ↔ ∀ a : Fin 2, win0_11.index t a * S2048x128.size a ≤ (i a).val
      ∧ (i a).val < win0_11.index t a * S2048x128.size a + S2048x128.size a := by
  show i ∈ ((View.whole main_v10).slice (win0_11.rect t)).set ↔ _
  rw [View.set_slice_whole, Rect.mem_set_unit]
  exact Iff.rfl

/-- Row r of the result lies in the block of point r / 2048. -/
theorem covered (i : S131072x128.Idx) : ∃ t : Fin cfg0.N, (cfg0.win 11).flush t = true ∧ i ∈ ((cfg0.win 11).blk t).view.set := by
  have hi0 : (i 0).val < 131072 := (i 0).isLt
  have hi1 : (i 1).val < 128 := (i 1).isLt
  have hN : cfg0.N = 64 := N_0
  have ht : (i 0).val / 2048 < cfg0.N := by rw [hN]; omega
  refine ⟨⟨(i 0).val / 2048, ht⟩, flush0_11 _, ?_⟩
  rw [mem_blk]
  intro a
  match a with
  | ⟨0, _⟩ =>
    show win0_11.index ⟨(i 0).val / 2048, ht⟩ (0 : Fin 2) * 2048 ≤ (i 0).val
      ∧ (i 0).val < win0_11.index ⟨(i 0).val / 2048, ht⟩ (0 : Fin 2) * 2048 + 2048
    rw [(idx11 ⟨(i 0).val / 2048, ht⟩).1]
    show (i 0).val / 2048 * 2048 ≤ (i 0).val ∧ (i 0).val < (i 0).val / 2048 * 2048 + 2048
    omega
  | ⟨1, _⟩ =>
    show win0_11.index ⟨(i 0).val / 2048, ht⟩ (1 : Fin 2) * 128 ≤ (i 1).val
      ∧ (i 1).val < win0_11.index ⟨(i 0).val / 2048, ht⟩ (1 : Fin 2) * 128 + 128
    rw [(idx11 ⟨(i 0).val / 2048, ht⟩).2]
    omega

/-- THE RESULT ARRAY after the run is the specification's array. -/
theorem final (c : Dev nD) : (dats m 0 c).arrAt 11 cfg0.N = Gm m c :=
  (dats m 0 c).arrAt_eq_of_cover 11 (Gm m c) (fun t _ => flushed_eq m c t) covered

/-! ## The run, read -/

/-- Every weakly fair execution of the kernel's program ends, nothing faulting, with the result array at the
    specification's array of the launch contents and the twenty-one argument arrays as launched. -/
theorem run : θ_run defs (onTc (τ := τ) (main (F := Ideal))) ⟨m, fun _ => 0, ρ⟩ (fun r => ∀ c : Dev nD,
      r.2.mem ((c.tc : Thread nD τ).loc main_v10) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c => ⟨(h c).1.trans (final m c), (h c).2⟩) (run_named m ρ)

end Cert.KernelIdeal.KValue

end
-- ==== Proof.RefSide.lean ====
/-
  The reference's result, entry by entry, is the row function of Cert.GruSpec.

  The reference applies nine affine layers X·W + b to whole arrays — a general dot product, the bias vector laid along
  a one-row array and that row along every row — and combines them entry by entry: the logistic function spelt
  1 / (1 + e^(−a)) with constants 1 splatted over the array, the means of two logistic values, the hyperbolic tangent.
  Entry (r, j) of an affine layer depends on row r of its left operand only, so entry (r, j) of the result is the row
  function of row r of the three activation arrays.
-/
import proofs.«136767_j63814624084652_2_alg».proof.Proof.Gen.ReferenceIdeal.Read
import proofs.«136767_j63814624084652_2_alg».proof.Proof.Spec
import proofs.«136767_j63814624084652_2_alg».proof.Proof.LibPlainDot

noncomputable section

namespace Cert.ReferenceIdeal.RefValue

open Cert.ReferenceIdeal Cert.ReferenceIdeal.Gen Cert.ReferenceIdeal.Read
open Idealize.ShloMosaic Idealize.ShloMosaic.ValueIdx Cert.GruSpec Cert.LibPlainDot

/-- The reference's nine products are plain 131072×128 by 128×128 products. -/
theorem dimsRef : dot_S131072x128_S128x128_S131072x128_1_0_0_1_n_n = DotDims.plain 131072 128 128 := rfl

/-- An affine layer of the reference at entry (r, j): row r of the left operand through the weights, plus the bias. -/
theorem layer_apply (l : FVec Ideal S131072x128 .f32) (w : FVec Ideal S128x128 .f32) (b : FVec Ideal S128 .f32) (r : Fin 131072) (j : Fin 128) :
    addf (Host.dotGeneral dot_S131072x128_S128x128_S131072x128_1_0_0_1_n_n none l w)
        (broadcastInDim S131072x128 ![0, 1] bcast_S1x128_S131072x128_0_1 (broadcastInDim S1x128 ![1] bcast_S128_S1x128_1 b)) (ix2 r j)
      = aff (fun k => l (ix2 r k)) (fun k j => w (ix2 k j)) (fun j => b (ix1 j)) j :=
  (dot_bias_at 131072 128 128 _ dimsRef l w b _ _ r j).trans rfl

/-- A float word splatted over the activation shape reads that word everywhere. -/
theorem splat_apply (b : BitVec 32) (i : S131072x128.Idx) :
    broadcastInDim S131072x128 ![] bcast_S_S131072x128 (constant (F := Ideal) S_ .f32 b) i = Ideal.ofBits .f32 b :=
  (broadcastInDim_apply _ bcast_S_S131072x128 (constant (F := Ideal) S_ .f32 b) i (fun a => a.elim0) (fun a => a.elim0)).trans rfl

/-- The reference's spelling of the logistic function of an array. -/
def hostSig (a : FVec Ideal S131072x128 .f32) : FVec Ideal S131072x128 .f32 :=
  Host.divf (broadcastInDim S131072x128 ![] bcast_S_S131072x128 (constant (F := Ideal) S_ .f32 0x3F800000#32))
    (addf (broadcastInDim S131072x128 ![] bcast_S_S131072x128 (constant (F := Ideal) S_ .f32 0x3F800000#32)) (Host.exp (Host.negf a)))

theorem hostSig_apply (a : FVec Ideal S131072x128 .f32) (i : S131072x128.Idx) : hostSig a i = sigm (a i) := by
  show Ideal.div (broadcastInDim S131072x128 ![] bcast_S_S131072x128 (constant (F := Ideal) S_ .f32 0x3F800000#32) i)
    (broadcastInDim S131072x128 ![] bcast_S_S131072x128 (constant (F := Ideal) S_ .f32 0x3F800000#32) i + Ideal.exp (-(a i))) = _
  rw [splat_apply]
  rfl

/-- The reference's spelling of a gate: the mean of two logistic arrays that share a hidden term. -/
def hostGate (a s h : FVec Ideal S131072x128 .f32) : FVec Ideal S131072x128 .f32 :=
  mulf (addf (hostSig (addf a h)) (hostSig (addf s h)))
    (broadcastInDim S131072x128 ![] bcast_S_S131072x128 (constant (F := Ideal) S_ .f32 0x3F000000#32))

theorem hostGate_apply (a s h : FVec Ideal S131072x128 .f32) (i : S131072x128.Idx) : hostGate a s h i = gate (a i) (s i) (h i) := by
  show (hostSig (addf a h) i + hostSig (addf s h) i) * broadcastInDim S131072x128 ![] bcast_S_S131072x128 (constant (F := Ideal) S_ .f32 0x3F000000#32) i = _
  rw [hostSig_apply, hostSig_apply, splat_apply]
  rfl

/-- The reference's combination of eight affine layers (the input, sequence and hidden paths of the reset gate, of the
    update gate, and the input and sequence paths of the candidate), the hidden array, and the candidate's hidden
    weights and bias. -/
def hostCombine (Lir Lsr Lhr Liz Lsz Lhz Lin Lsn h : FVec Ideal S131072x128 .f32) (Whn : FVec Ideal S128x128 .f32) (bhn : FVec Ideal S128 .f32) :
    FVec Ideal S131072x128 .f32 :=
  addf
    (mulf (subf (broadcastInDim S131072x128 ![] bcast_S_S131072x128 (constant (F := Ideal) S_ .f32 0x3F800000#32)) (hostGate Liz Lsz Lhz))
      (Host.tanh (addf (addf Lin Lsn)
        (addf (Host.dotGeneral dot_S131072x128_S128x128_S131072x128_1_0_0_1_n_n none (mulf (hostGate Lir Lsr Lhr) h) Whn)
          (broadcastInDim S131072x128 ![0, 1] bcast_S1x128_S131072x128_0_1 (broadcastInDim S1x128 ![1] bcast_S128_S1x128_1 bhn))))))
    (mulf (hostGate Liz Lsz Lhz) h)

theorem hostCombine_apply (Lir Lsr Lhr Liz Lsz Lhz Lin Lsn h : FVec Ideal S131072x128 .f32) (Whn : FVec Ideal S128x128 .f32) (bhn : FVec Ideal S128 .f32)
    (r : Fin 131072) (j : Fin 128) :
    hostCombine Lir Lsr Lhr Liz Lsz Lhz Lin Lsn h Whn bhn (ix2 r j) =
      (one - gate (Liz (ix2 r j)) (Lsz (ix2 r j)) (Lhz (ix2 r j)))
          * Ideal.tanh ((Lin (ix2 r j) + Lsn (ix2 r j))
              + ((∑ k : Fin 128, (gate (Lir (ix2 r k)) (Lsr (ix2 r k)) (Lhr (ix2 r k)) * h (ix2 r k)) * Whn (ix2 k j)) + bhn (ix1 j)))
        + gate (Liz (ix2 r j)) (Lsz (ix2 r j)) (Lhz (ix2 r j)) * h (ix2 r j) := by
  show (broadcastInDim S131072x128 ![] bcast_S_S131072x128 (constant (F := Ideal) S_ .f32 0x3F800000#32) (ix2 r j) - hostGate Liz Lsz Lhz (ix2 r j))
      * Ideal.tanh ((Lin (ix2 r j) + Lsn (ix2 r j))
          + addf (Host.dotGeneral dot_S131072x128_S128x128_S131072x128_1_0_0_1_n_n none (mulf (hostGate Lir Lsr Lhr) h) Whn)
              (broadcastInDim S131072x128 ![0, 1] bcast_S1x128_S131072x128_0_1 (broadcastInDim S1x128 ![1] bcast_S128_S1x128_1 bhn)) (ix2 r j))
      + hostGate Liz Lsz Lhz (ix2 r j) * h (ix2 r j) = _
  rw [splat_apply, hostGate_apply, layer_apply]
  simp only [mulf_apply, hostGate_apply]
  rfl

/-- The reference's result stage is that combination of its eight plain layers. -/
theorem stage_eq_combine (x0 x1 x2 : FVec Ideal S131072x128 .f32) (x3 : FVec Ideal S128x128 .f32) (x4 : FVec Ideal S128 .f32)
    (x5 : FVec Ideal S128x128 .f32) (x6 : FVec Ideal S128 .f32) (x7 : FVec Ideal S128x128 .f32) (x8 : FVec Ideal S128 .f32)
    (x9 : FVec Ideal S128x128 .f32) (x10 : FVec Ideal S128 .f32) (x11 : FVec Ideal S128x128 .f32) (x12 : FVec Ideal S128 .f32)
    (x13 : FVec Ideal S128x128 .f32) (x14 : FVec Ideal S128 .f32) (x15 : FVec Ideal S128x128 .f32) (x16 : FVec Ideal S128 .f32)
    (x17 : FVec Ideal S128x128 .f32) (x18 : FVec Ideal S128 .f32) (x19 : FVec Ideal S128x128 .f32) (x20 : FVec Ideal S128 .f32) :
    val_main_v78 (F := Ideal) x0 x1 x2 x3 x4 x5 x6 x7 x8 x9 x10 x11 x12 x13 x14 x15 x16 x17 x18 x19 x20 =
      hostCombine (val_main_v7 (F := Ideal) x0 x3 x4) (val_main_v18 (F := Ideal) x1 x9 x10) (val_main_v3 (F := Ideal) x2 x15 x16)
        (val_main_v36 (F := Ideal) x0 x5 x6) (val_main_v47 (F := Ideal) x1 x11 x12) (val_main_v32 (F := Ideal) x2 x17 x18)
        (val_main_v61 (F := Ideal) x0 x7 x8) (val_main_v65 (F := Ideal) x1 x13 x14) x2 x19 x20 := rfl

/-- THE REFERENCE'S RESULT is the specification's array of its twenty-one arguments. -/
theorem ref_is_G (x0 x1 x2 : FVec Ideal S131072x128 .f32) (x3 : FVec Ideal S128x128 .f32) (x4 : FVec Ideal S128 .f32)
    (x5 : FVec Ideal S128x128 .f32) (x6 : FVec Ideal S128 .f32) (x7 : FVec Ideal S128x128 .f32) (x8 : FVec Ideal S128 .f32)
    (x9 : FVec Ideal S128x128 .f32) (x10 : FVec Ideal S128 .f32) (x11 : FVec Ideal S128x128 .f32) (x12 : FVec Ideal S128 .f32)
    (x13 : FVec Ideal S128x128 .f32) (x14 : FVec Ideal S128 .f32) (x15 : FVec Ideal S128x128 .f32) (x16 : FVec Ideal S128 .f32)
    (x17 : FVec Ideal S128x128 .f32) (x18 : FVec Ideal S128 .f32) (x19 : FVec Ideal S128x128 .f32) (x20 : FVec Ideal S128 .f32) :
    val_main_v78 (F := Ideal) x0 x1 x2 x3 x4 x5 x6 x7 x8 x9 x10 x11 x12 x13 x14 x15 x16 x17 x18 x19 x20 =
      G x0 x1 x2 x3 x4 x5 x6 x7 x8 x9 x10 x11 x12 x13 x14 x15 x16 x17 x18 x19 x20 := by
  rw [stage_eq_combine]
  funext i
  obtain ⟨r, j, rfl⟩ : ∃ (r : Fin 131072) (j : Fin 128), i = ix2 r j := ⟨i 0, i 1, eq_ix2 i⟩
  rw [hostCombine_apply]
  have Lir : ∀ k, val_main_v7 (F := Ideal) x0 x3 x4 (ix2 r k) = aff (fun k => x0 (ix2 r k)) (fun k j => x3 (ix2 k j)) (fun j => x4 (ix1 j)) k :=
    fun k => layer_apply x0 x3 x4 r k
  have Lsr : ∀ k, val_main_v18 (F := Ideal) x1 x9 x10 (ix2 r k) = aff (fun k => x1 (ix2 r k)) (fun k j => x9 (ix2 k j)) (fun j => x10 (ix1 j)) k :=
    fun k => layer_apply x1 x9 x10 r k
  have Lhr : ∀ k, val_main_v3 (F := Ideal) x2 x15 x16 (ix2 r k) = aff (fun k => x2 (ix2 r k)) (fun k j => x15 (ix2 k j)) (fun j => x16 (ix1 j)) k :=
    fun k => layer_apply x2 x15 x16 r k
  have Liz : val_main_v36 (F := Ideal) x0 x5 x6 (ix2 r j) = aff (fun k => x0 (ix2 r k)) (fun k j => x5 (ix2 k j)) (fun j => x6 (ix1 j)) j :=
    layer_apply x0 x5 x6 r j
  have Lsz : val_main_v47 (F := Ideal) x1 x11 x12 (ix2 r j) = aff (fun k => x1 (ix2 r k)) (fun k j => x11 (ix2 k j)) (fun j => x12 (ix1 j)) j :=
    layer_apply x1 x11 x12 r j
  have Lhz : val_main_v32 (F := Ideal) x2 x17 x18 (ix2 r j) = aff (fun k => x2 (ix2 r k)) (fun k j => x17 (ix2 k j)) (fun j => x18 (ix1 j)) j :=
    layer_apply x2 x17 x18 r j
  have Lin : val_main_v61 (F := Ideal) x0 x7 x8 (ix2 r j) = aff (fun k => x0 (ix2 r k)) (fun k j => x7 (ix2 k j)) (fun j => x8 (ix1 j)) j :=
    layer_apply x0 x7 x8 r j
  have Lsn : val_main_v65 (F := Ideal) x1 x13 x14 (ix2 r j) = aff (fun k => x1 (ix2 r k)) (fun k j => x13 (ix2 k j)) (fun j => x14 (ix1 j)) j :=
    layer_apply x1 x13 x14 r j
  simp only [Lir, Lsr, Lhr]
  rw [Liz, Lsz, Lhz, Lin, Lsn]
  rfl

end Cert.ReferenceIdeal.RefValue

end
-- ==== Proof.lean ====
/-
  The kernel and its reference compute the same gated-recurrent update, entry by entry, on the extended reals.

  Both programs take an input, a sequence and a hidden array (131072 rows of 128) and, for nine gates, a 128×128 weight
  matrix and a bias row, and return the new hidden array: two gates that average the logistic of an input path and of
  a sequence path over a shared hidden path, a candidate that is the hyperbolic tangent of three affine terms (the
  third applied to the reset-gated hidden row), and their convex-style combination with the old hidden state
  (Proof/Spec.lean states the function for one row). The reference applies nine separate affine layers to the whole
  arrays. The kernel's program first lays the weight matrices of gates that share an operand side by side, runs one
  region over 64 blocks of 2048 rows with four wide products per block, and cuts the products apart again by column
  ranges. On the extended reals a product's entry is the same sum of 128 terms however the columns are grouped and
  however the rows are blocked, so the two results agree entry by entry; no law of the extended reals beyond the
  definitions is used, and the precondition (finite inputs) is not needed.

  frame_Kernel / frame_KernelIdeal: Proof/KFrame.lean, Proof/KIFrame.lean (host lines, the region, the body's triple).
  frame_ReferenceIdeal: the reference's run with its result dropped.
  preserves: the idealization rewrote nothing.
  algebraic: the kernel's result array is the specification's array of the launch contents (Proof/KIValue.lean, over
  Proof/KIPayload.lean and Proof/KIHost.lean), and so is the reference's (Proof/RefSide.lean).
-/
import proofs.«136767_j63814624084652_2_alg».proof.Defs
import proofs.«136767_j63814624084652_2_alg».proof.Proof.Gen.Kernel
import proofs.«136767_j63814624084652_2_alg».proof.Proof.Gen.KernelIdeal
import proofs.«136767_j63814624084652_2_alg».proof.Proof.Gen.ReferenceIdeal
import proofs.«136767_j63814624084652_2_alg».proof.Proof.Gen.Pre_finite_inputs
import proofs.«136767_j63814624084652_2_alg».proof.Proof.KFrame
import proofs.«136767_j63814624084652_2_alg».proof.Proof.KIValue
import proofs.«136767_j63814624084652_2_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the twenty-one arguments both programs end with the specification's array of those
    arguments in their result buffer. -/
theorem algebraic : Cert.algebraic_KernelIdeal_ReferenceIdeal := by
  intro m ρ m' ρ' _ hagree
  refine ⟨fun c => Cert.KernelIdeal.KValue.Gm m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v78_eq, Cert.ReferenceIdeal.RefValue.ref_is_G]
  obtain ⟨h0, h1, h2, h3, h4, h5, h6, h7, h8, h9, h10, h11, h12, h13, h14, h15, h16, h17, h18, h19, h20⟩ := hagree c
  rw [h0, h1, h2, h3, h4, h5, h6, h7, h8, h9, h10, h11, h12, h13, h14, h15, h16, h17, h18, h19, h20]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
